-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x240x90 : Shape := ⟨3, ![2048, 240, 90]⟩
abbrev S360x90 : Shape := ⟨2, ![360, 90]⟩
abbrev S360 : Shape := ⟨1, ![360]⟩
abbrev S40x21600 : Shape := ⟨2, ![40, 21600]⟩
abbrev S40 : Shape := ⟨1, ![40]⟩
abbrev S_ : Shape := ⟨0, ![]⟩

class Facts : Prop where
  bcast_S_S2048x240x90 : S_.BroadcastsInDim S2048x240x90 (![] : Fin 0 → Fin S2048x240x90.rank)
  reducesTo_S2048x240x90_S_d0_1_2 : S2048x240x90.ReducesTo [0, 1, 2] S_
  h_S_ : 0 < S_.numel
  bcast_S_S360x90 : S_.BroadcastsInDim S360x90 (![] : Fin 0 → Fin S360x90.rank)
  reducesTo_S360x90_S_d0_1 : S360x90.ReducesTo [0, 1] S_
  bcast_S_S360 : S_.BroadcastsInDim S360 (![] : Fin 0 → Fin S360.rank)
  reducesTo_S360_S_d0 : S360.ReducesTo [0] S_
  bcast_S_S40x21600 : S_.BroadcastsInDim S40x21600 (![] : Fin 0 → Fin S40x21600.rank)
  reducesTo_S40x21600_S_d0_1 : S40x21600.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S360 .f32) (main_arg5 : FVec F S40x21600 .f32) (main_arg6 : FVec F S40 .f32) (main_v13 : IVec S_ 1) (main_v16 : IVec S360 1) : IVec S_ 1 :=
  let main_c_5 : IVec S_ 1 := constantI S_ 1 1#1
  let main_v17 : IVec S_ 1 := (fun x v => Host.reduce IntOp.andi x v reducesTo_S360_S_d0 h_S_) main_v16 main_c_5
  let main_v18 : IVec S_ 1 := andi main_v13 main_v17
  let main_v19 : FVec F S360 .f32 := Host.absf main_arg4
  let main_cst_6 : FVec F S_ .f32 := constant S_ .f32 0x7F800000#32
  let main_v20 : FVec F S360 .f32 := broadcastInDim S360 ![] bcast_S_S360 main_cst_6
  let main_v21 : IVec S360 1 := cmpf .olt main_v19 main_v20
  let main_c_7 : IVec S_ 1 := constantI S_ 1 1#1
  let main_v22 : IVec S_ 1 := (fun x v => Host.reduce IntOp.andi x v reducesTo_S360_S_d0 h_S_) main_v21 main_c_7
  let main_v23 : IVec S_ 1 := andi main_v18 main_v22
  let main_v24 : FVec F S40x21600 .f32 := Host.absf main_arg5
  let main_cst_8 : FVec F S_ .f32 := constant S_ .f32 0x7F800000#32
  let main_v25 : FVec F S40x21600 .f32 := broadcastInDim S40x21600 ![] bcast_S_S40x21600 main_cst_8
  let main_v26 : IVec S40x21600 1 := cmpf .olt main_v24 main_v25
  let main_c_9 : IVec S_ 1 := constantI S_ 1 1#1
  let main_v27 : IVec S_ 1 := (fun x v => Host.reduce IntOp.andi x v reducesTo_S40x21600_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S2048x240x90 .f32) (main_arg1 : FVec F S360x90 .f32) (main_arg2 : FVec F S360x90 .f32) (main_arg3 : FVec F S360 .f32) (main_arg4 : FVec F S360 .f32) (main_arg5 : FVec F S40x21600 .f32) (main_arg6 : FVec F S40 .f32) : IVec S_ 1 :=
  let main_v0 : FVec F S2048x240x90 .f32 := Host.absf main_arg0
  let main_cst : FVec F S_ .f32 := constant S_ .f32 0x7F800000#32
  let main_v1 : FVec F S2048x240x90 .f32 := broadcastInDim S2048x240x90 ![] bcast_S_S2048x240x90 main_cst
  let main_v2 : IVec S2048x240x90 1 := cmpf .olt main_v0 main_v1
  let main_c : IVec S_ 1 := constantI S_ 1 1#1
  let main_v3 : IVec S_ 1 := (fun x v => Host.reduce IntOp.andi x v reducesTo_S2048x240x90_S_d0_1_2 h_S_) main_v2 main_c
  let main_v4 : FVec F S360x90 .f32 := Host.absf main_arg1
  let main_cst_0 : FVec F S_ .f32 := constant S_ .f32 0x7F800000#32
  let main_v5 : FVec F S360x90 .f32 := broadcastInDim S360x90 ![] bcast_S_S360x90 main_cst_0
  let main_v6 : IVec S360x90 1 := cmpf .olt main_v4 main_v5
  let main_c_1 : IVec S_ 1 := constantI S_ 1 1#1
  let main_v7 : IVec S_ 1 := (fun x v => Host.reduce IntOp.andi x v reducesTo_S360x90_S_d0_1 h_S_) main_v6 main_c_1
  let main_v8 : IVec S_ 1 := andi main_v3 main_v7
  let main_v9 : FVec F S360x90 .f32 := Host.absf main_arg2
  let main_cst_2 : FVec F S_ .f32 := constant S_ .f32 0x7F800000#32
  let main_v10 : FVec F S360x90 .f32 := broadcastInDim S360x90 ![] bcast_S_S360x90 main_cst_2
  let main_v11 : IVec S360x90 1 := cmpf .olt main_v9 main_v10
  let main_c_3 : IVec S_ 1 := constantI S_ 1 1#1
  let main_v12 : IVec S_ 1 := (fun x v => Host.reduce IntOp.andi x v reducesTo_S360x90_S_d0_1 h_S_) main_v11 main_c_3
  let main_v13 : IVec S_ 1 := andi main_v8 main_v12
  let main_v14 : FVec F S360 .f32 := Host.absf main_arg3
  let main_cst_4 : FVec F S_ .f32 := constant S_ .f32 0x7F800000#32
  let main_v15 : FVec F S360 .f32 := broadcastInDim S360 ![] bcast_S_S360 main_cst_4
  let main_v16 : IVec S360 1 := cmpf .olt main_v14 main_v15
  fn_part1 (F := F) main_arg4 main_arg5 main_arg6 main_v13 main_v16
-- ==== Kernel.lean ====
abbrev S2048x240x90 : Shape := ⟨3, ![2048, 240, 90]⟩
abbrev S360x90 : Shape := ⟨2, ![360, 90]⟩
abbrev S360 : Shape := ⟨1, ![360]⟩
abbrev S40x21600 : Shape := ⟨2, ![40, 21600]⟩
abbrev S40 : Shape := ⟨1, ![40]⟩
abbrev S40x240x90 : Shape := ⟨3, ![40, 240, 90]⟩
abbrev S2048x40 : Shape := ⟨2, ![2048, 40]⟩
abbrev S256x24x90 : Shape := ⟨3, ![256, 24, 90]⟩
abbrev S40x24x90 : Shape := ⟨3, ![40, 24, 90]⟩
abbrev S256x40 : Shape := ⟨2, ![256, 40]⟩
abbrev S6144x90 : Shape := ⟨2, ![6144, 90]⟩
abbrev S90x360 : Shape := ⟨2, ![90, 360]⟩
abbrev S6144x360 : Shape := ⟨2, ![6144, 360]⟩
abbrev S1x360 : Shape := ⟨2, ![1, 360]⟩
abbrev S256x1x90 : Shape := ⟨3, ![256, 1, 90]⟩
abbrev S256x90 : Shape := ⟨2, ![256, 90]⟩
abbrev S40x1x90 : Shape := ⟨3, ![40, 1, 90]⟩
abbrev S40x90 : Shape := ⟨2, ![40, 90]⟩
abbrev S90x40 : Shape := ⟨2, ![90, 40]⟩
abbrev S1x40 : Shape := ⟨2, ![1, 40]⟩
abbrev S2048x4x10 : Shape := ⟨3, ![2048, 4, 10]⟩
abbrev S_ : Shape := ⟨0, ![]⟩
abbrev S2048x4 : Shape := ⟨2, ![2048, 4]⟩
abbrev S2048x4x1 : Shape := ⟨3, ![2048, 4, 1]⟩

abbrev nBuf : Space → Nat
  | .hbm => 25
  | .vmem => 9
  | .smem => 0
  | _ => 0

abbrev bufTy : (tb : Table) → Fin (tcTables nBuf tb) → BufTy
  | .hbm, ⟨0, _⟩ => ⟨S2048x240x90, .f32⟩
  | .hbm, ⟨1, _⟩ => ⟨S360x90, .f32⟩
  | .hbm, ⟨2, _⟩ => ⟨S360x90, .f32⟩
  | .hbm, ⟨3, _⟩ => ⟨S360, .f32⟩
  | .hbm, ⟨4, _⟩ => ⟨S360, .f32⟩
  | .hbm, ⟨5, _⟩ => ⟨S40x21600, .f32⟩
  | .hbm, ⟨6, _⟩ => ⟨S40, .f32⟩
  | .hbm, ⟨7, _⟩ => ⟨S360, .f32⟩
  | .hbm, ⟨8, _⟩ => ⟨S40x240x90, .f32⟩
  | .hbm, ⟨9, _⟩ => ⟨S2048x40, .f32⟩
  | .hbm, ⟨10, _⟩ => ⟨S2048x4x10, .f32⟩
  | .hbm, ⟨11, _⟩ => ⟨S_, .f32⟩
  | .hbm, ⟨12, _⟩ => ⟨S2048x4, .f32⟩
  | .hbm, ⟨13, _⟩ => ⟨S_, .f32⟩
  | .hbm, ⟨14, _⟩ => ⟨S2048x4, .f32⟩
  | .hbm, ⟨15, _⟩ => ⟨S2048x4, .f32⟩
  | .hbm, ⟨16, _⟩ => ⟨S2048x4x1, .f32⟩
  | .hbm, ⟨17, _⟩ => ⟨S2048x4x10, .f32⟩
  | .hbm, ⟨18, _⟩ => ⟨S2048x4x10, .f32⟩
  | .hbm, ⟨19, _⟩ => ⟨S2048x4x10, .f32⟩
  | .hbm, ⟨20, _⟩ => ⟨S_, .f32⟩
  | .hbm, ⟨21, _⟩ => ⟨S2048x4, .f32⟩
  | .hbm, ⟨22, _⟩ => ⟨S2048x4x1, .f32⟩
  | .hbm, ⟨23, _⟩ => ⟨S2048x4x10, .f32⟩
  | .hbm, ⟨24, _⟩ => ⟨S2048x4x10, .f32⟩
  | .local _ .vmem, ⟨0, _⟩ => ⟨S256x24x90, .f32⟩
  | .local _ .vmem, ⟨1, _⟩ => ⟨S256x24x90, .f32⟩
  | .local _ .vmem, ⟨2, _⟩ => ⟨S360x90, .f32⟩
  | .local _ .vmem, ⟨3, _⟩ => ⟨S360, .f32⟩
  | .local _ .vmem, ⟨4, _⟩ => ⟨S40x24x90, .f32⟩
  | .local _ .vmem, ⟨5, _⟩ => ⟨S40x24x90, .f32⟩
  | .local _ .vmem, ⟨6, _⟩ => ⟨S40, .f32⟩
  | .local _ .vmem, ⟨7, _⟩ => ⟨S256x40, .f32⟩
  | .local _ .vmem, ⟨8, _⟩ => ⟨S256x40, .f32⟩
  | _, _ => ⟨S2048x240x90, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x24x90 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S360x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S360 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S40x24x90 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x40 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S40x21600_S40x240x90 : S40x21600.ShapeCasts S40x240x90
  inb_S256x40_S256x40_0_0 : ∀ a, (![0, 0] : Fin 2 → Nat) a + S256x40.size a ≤ S256x40.size a
  h_S256x40 : 0 < S256x40.numel
  inb_S256x24x90_S256x24x90_0_0_0 : ∀ a, (![0, 0, 0] : Fin 3 → Nat) a + S256x24x90.size a ≤ S256x24x90.size a
  h_S256x24x90 : 0 < S256x24x90.numel
  bitsLt_bf16_f32 : FTy.bits .bf16 < FTy.bits .f32
  shapeCasts_S256x24x90_S6144x90 : S256x24x90.ShapeCasts S6144x90
  inb_S360x90_S360x90_0_0 : ∀ a, (![0, 0] : Fin 2 → Nat) a + S360x90.size a ≤ S360x90.size a
  h_S360x90 : 0 < S360x90.numel
  transposes_S360x90_p1_0_S90x360 : S360x90.Transposes [1, 0] S90x360
  inb_S360_S360_0 : ∀ a, (![0] : Fin 1 → Nat) a + S360.size a ≤ S360.size a
  h_S360 : 0 < S360.numel
  shapeCasts_S360_S360 : S360.ShapeCasts S360
  shapeCasts_S360_S1x360 : S360.ShapeCasts S1x360
  broadcasts_S1x360_S6144x360 : S1x360.Broadcasts S6144x360
  slices_S6144x360_o0_0_S6144x90 : S6144x360.Slices ![0, 0] S6144x90
  slices_S6144x360_o0_180_S6144x90 : S6144x360.Slices ![0, 180] S6144x90
  slices_S6144x360_o0_270_S6144x90 : S6144x360.Slices ![0, 270] S6144x90
  shapeCasts_S6144x90_S256x24x90 : S6144x90.ShapeCasts S256x24x90
  inb_S40x24x90_S40x24x90_0_0_0 : ∀ a, (![0, 0, 0] : Fin 3 → Nat) a + S40x24x90.size a ≤ S40x24x90.size a
  h_S40x24x90 : 0 < S40x24x90.numel
  shapeCasts_S40x24x90_S40x24x90 : S40x24x90.ShapeCasts S40x24x90
  slices_S256x24x90_o0_0_0_S256x1x90 : S256x24x90.Slices ![0, 0, 0] S256x1x90
  shapeCasts_S256x1x90_S256x90 : S256x1x90.ShapeCasts S256x90
  slices_S40x24x90_o0_0_0_S40x1x90 : S40x24x90.Slices ![0, 0, 0] S40x1x90
  shapeCasts_S40x1x90_S40x90 : S40x1x90.ShapeCasts S40x90
  transposes_S40x90_p1_0_S90x40 : S40x90.Transposes [1, 0] S90x40
  slices_S256x24x90_o0_1_0_S256x1x90 : S256x24x90.Slices ![0, 1, 0] S256x1x90
  slices_S40x24x90_o0_1_0_S40x1x90 : S40x24x90.Slices ![0, 1, 0] S40x1x90
  slices_S256x24x90_o0_2_0_S256x1x90 : S256x24x90.Slices ![0, 2, 0] S256x1x90
  slices_S40x24x90_o0_2_0_S40x1x90 : S40x24x90.Slices ![0, 2, 0] S40x1x90
  slices_S256x24x90_o0_3_0_S256x1x90 : S256x24x90.Slices ![0, 3, 0] S256x1x90
  slices_S40x24x90_o0_3_0_S40x1x90 : S40x24x90.Slices ![0, 3, 0] S40x1x90
  slices_S256x24x90_o0_4_0_S256x1x90 : S256x24x90.Slices ![0, 4, 0] S256x1x90
  slices_S40x24x90_o0_4_0_S40x1x90 : S40x24x90.Slices ![0, 4, 0] S40x1x90
  slices_S256x24x90_o0_5_0_S256x1x90 : S256x24x90.Slices ![0, 5, 0] S256x1x90
  slices_S40x24x90_o0_5_0_S40x1x90 : S40x24x90.Slices ![0, 5, 0] S40x1x90
  slices_S256x24x90_o0_6_0_S256x1x90 : S256x24x90.Slices ![0, 6, 0] S256x1x90
  slices_S40x24x90_o0_6_0_S40x1x90 : S40x24x90.Slices ![0, 6, 0] S40x1x90
  slices_S256x24x90_o0_7_0_S256x1x90 : S256x24x90.Slices ![0, 7, 0] S256x1x90
  slices_S40x24x90_o0_7_0_S40x1x90 : S40x24x90.Slices ![0, 7, 0] S40x1x90
  slices_S256x24x90_o0_8_0_S256x1x90 : S256x24x90.Slices ![0, 8, 0] S256x1x90
  slices_S40x24x90_o0_8_0_S40x1x90 : S40x24x90.Slices ![0, 8, 0] S40x1x90
  slices_S256x24x90_o0_9_0_S256x1x90 : S256x24x90.Slices ![0, 9, 0] S256x1x90
  slices_S40x24x90_o0_9_0_S40x1x90 : S40x24x90.Slices ![0, 9, 0] S40x1x90
  slices_S256x24x90_o0_10_0_S256x1x90 : S256x24x90.Slices ![0, 10, 0] S256x1x90
  slices_S40x24x90_o0_10_0_S40x1x90 : S40x24x90.Slices ![0, 10, 0] S40x1x90
  slices_S256x24x90_o0_11_0_S256x1x90 : S256x24x90.Slices ![0, 11, 0] S256x1x90
  slices_S40x24x90_o0_11_0_S40x1x90 : S40x24x90.Slices ![0, 11, 0] S40x1x90
  slices_S256x24x90_o0_12_0_S256x1x90 : S256x24x90.Slices ![0, 12, 0] S256x1x90
  slices_S40x24x90_o0_12_0_S40x1x90 : S40x24x90.Slices ![0, 12, 0] S40x1x90
  slices_S256x24x90_o0_13_0_S256x1x90 : S256x24x90.Slices ![0, 13, 0] S256x1x90
  slices_S40x24x90_o0_13_0_S40x1x90 : S40x24x90.Slices ![0, 13, 0] S40x1x90
  slices_S256x24x90_o0_14_0_S256x1x90 : S256x24x90.Slices ![0, 14, 0] S256x1x90
  slices_S40x24x90_o0_14_0_S40x1x90 : S40x24x90.Slices ![0, 14, 0] S40x1x90
  slices_S256x24x90_o0_15_0_S256x1x90 : S256x24x90.Slices ![0, 15, 0] S256x1x90
  slices_S40x24x90_o0_15_0_S40x1x90 : S40x24x90.Slices ![0, 15, 0] S40x1x90
  slices_S256x24x90_o0_16_0_S256x1x90 : S256x24x90.Slices ![0, 16, 0] S256x1x90
  slices_S40x24x90_o0_16_0_S40x1x90 : S40x24x90.Slices ![0, 16, 0] S40x1x90
  slices_S256x24x90_o0_17_0_S256x1x90 : S256x24x90.Slices ![0, 17, 0] S256x1x90
  slices_S40x24x90_o0_17_0_S40x1x90 : S40x24x90.Slices ![0, 17, 0] S40x1x90
  slices_S256x24x90_o0_18_0_S256x1x90 : S256x24x90.Slices ![0, 18, 0] S256x1x90
  slices_S40x24x90_o0_18_0_S40x1x90 : S40x24x90.Slices ![0, 18, 0] S40x1x90
  slices_S256x24x90_o0_19_0_S256x1x90 : S256x24x90.Slices ![0, 19, 0] S256x1x90
  slices_S40x24x90_o0_19_0_S40x1x90 : S40x24x90.Slices ![0, 19, 0] S40x1x90
  slices_S256x24x90_o0_20_0_S256x1x90 : S256x24x90.Slices ![0, 20, 0] S256x1x90
  slices_S40x24x90_o0_20_0_S40x1x90 : S40x24x90.Slices ![0, 20, 0] S40x1x90
  slices_S256x24x90_o0_21_0_S256x1x90 : S256x24x90.Slices ![0, 21, 0] S256x1x90
  slices_S40x24x90_o0_21_0_S40x1x90 : S40x24x90.Slices ![0, 21, 0] S40x1x90
  slices_S256x24x90_o0_22_0_S256x1x90 : S256x24x90.Slices ![0, 22, 0] S256x1x90
  slices_S40x24x90_o0_22_0_S40x1x90 : S40x24x90.Slices ![0, 22, 0] S40x1x90
  slices_S256x24x90_o0_23_0_S256x1x90 : S256x24x90.Slices ![0, 23, 0] S256x1x90
  slices_S40x24x90_o0_23_0_S40x1x90 : S40x24x90.Slices ![0, 23, 0] S40x1x90
  shapeCasts_S256x40_S256x40 : S256x40.ShapeCasts S256x40
  inb_S40_S40_0 : ∀ a, (![0] : Fin 1 → Nat) a + S40.size a ≤ S40.size a
  h_S40 : 0 < S40.numel
  shapeCasts_S40_S1x40 : S40.ShapeCasts S1x40
  broadcasts_S1x40_S256x40 : S1x40.Broadcasts S256x40
  shapeCasts_S2048x40_S2048x4x10 : S2048x40.ShapeCasts S2048x4x10
  reducesTo_S2048x4x10_S2048x4_d2 : S2048x4x10.ReducesTo [2] S2048x4
  h_S_ : 0 < S_.numel
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  bcast_S2048x4x1_S2048x4x10_0_1_2 : S2048x4x1.BroadcastsInDim S2048x4x10 (![0, 1, 2] : Fin 3 → Fin S2048x4x10.rank)
  dot_S6144x90_S90x360_S6144x360_1_0_0_1_n_n_wf : DotDims.WF S6144x90 S90x360 S6144x360 [1] [0] [0] [1] [] []
  dot_S256x90_S90x40_S256x40_1_0_0_1_n_n_wf : DotDims.WF S256x90 S90x40 S256x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x24x90.size a ≤ S2048x240x90.size a
  hwx0_0 : ∀ i : grid0.Coords, EltTy.bits .f32 = 32 ∨ (Rect.block (s := S2048x240x90) S256x24x90.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S360x90.size a ≤ S360x90.size a
  hwx0_1 : ∀ i : grid0.Coords, EltTy.bits .f32 = 32 ∨ (Rect.block (s := S360x90) S360x90.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S360.size a ≤ S360.size a
  hwx0_2 : ∀ i : grid0.Coords, EltTy.bits .f32 = 32 ∨ (Rect.block (s := S360) S360.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x24x90.size a ≤ S40x240x90.size a
  hwx0_3 : ∀ i : grid0.Coords, EltTy.bits .f32 = 32 ∨ (Rect.block (s := S40x240x90) S40x24x90.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40.size a ≤ S40.size a
  hwx0_4 : ∀ i : grid0.Coords, EltTy.bits .f32 = 32 ∨ (Rect.block (s := S40) S40.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x40.size a ≤ S2048x40.size a
  hwx0_5 : ∀ i : grid0.Coords, EltTy.bits .f32 = 32 ∨ (Rect.block (s := S2048x40) S256x40.size (cc0_transform_5 i) (hinb0_5 i)).WholeWords (EltTy.packing .f32)

variable [Facts₀]

def dot_S6144x90_S90x360_S6144x360_1_0_0_1_n_n : DotDims S6144x90 S90x360 S6144x360 where
  lhsContracting := [1]
  rhsContracting := [0]
  lhsNonContracting := [0]
  rhsNonContracting := [1]
  lhsBatch := []
  rhsBatch := []
  wf := dot_S6144x90_S90x360_S6144x360_1_0_0_1_n_n_wf
def dot_S256x90_S90x40_S256x40_1_0_0_1_n_n : DotDims S256x90 S90x40 S256x40 where
  lhsContracting := [1]
  rhsContracting := [0]
  lhsNonContracting := [0]
  rhsNonContracting := [1]
  lhsBatch := []
  rhsBatch := []
  wf := dot_S256x90_S90x40_S256x40_1_0_0_1_n_n_wf

abbrev win0_0 : Pipeline.Window sig grid0 :=
  Pipeline.Window.ofSpec (Memref.whole main_arg0) S256x24x90.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S360x90.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S360.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S40x24x90.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x40.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x240x90 : Shape := ⟨3, ![2048, 240, 90]⟩
abbrev S360x90 : Shape := ⟨2, ![360, 90]⟩
abbrev S360 : Shape := ⟨1, ![360]⟩
abbrev S40x21600 : Shape := ⟨2, ![40, 21600]⟩
abbrev S40 : Shape := ⟨1, ![40]⟩
abbrev S2048x240x360 : Shape := ⟨3, ![2048, 240, 360]⟩
abbrev S1x1x360 : Shape := ⟨3, ![1, 1, 360]⟩
abbrev S_ : Shape := ⟨0, ![]⟩
abbrev S2048x21600 : Shape := ⟨2, ![2048, 21600]⟩
abbrev S21600x40 : Shape := ⟨2, ![21600, 40]⟩
abbrev S2048x40 : Shape := ⟨2, ![2048, 40]⟩
abbrev S1x40 : Shape := ⟨2, ![1, 40]⟩
abbrev S2048x4x10 : Shape := ⟨3, ![2048, 4, 10]⟩
abbrev S2048x4 : Shape := ⟨2, ![2048, 4]⟩
abbrev S2048x4x1 : Shape := ⟨3, ![2048, 4, 1]⟩

abbrev nBuf : Space → Nat
  | .hbm => 59
  | .vmem => 0
  | .smem => 0
  | _ => 0

abbrev bufTy : (tb : Table) → Fin (tcTables nBuf tb) → BufTy
  | .hbm, ⟨0, _⟩ => ⟨S2048x240x90, .f32⟩
  | .hbm, ⟨1, _⟩ => ⟨S360x90, .f32⟩
  | .hbm, ⟨2, _⟩ => ⟨S360x90, .f32⟩
  | .hbm, ⟨3, _⟩ => ⟨S360, .f32⟩
  | .hbm, ⟨4, _⟩ => ⟨S360, .f32⟩
  | .hbm, ⟨5, _⟩ => ⟨S40x21600, .f32⟩
  | .hbm, ⟨6, _⟩ => ⟨S40, .f32⟩
  | .hbm, ⟨7, _⟩ => ⟨S2048x240x360, .f32⟩
  | .hbm, ⟨8, _⟩ => ⟨S1x1x360, .f32⟩
  | .hbm, ⟨9, _⟩ => ⟨S2048x240x360, .f32⟩
  | .hbm, ⟨10, _⟩ => ⟨S2048x240x360, .f32⟩
  | .hbm, ⟨11, _⟩ => ⟨S1x1x360, .f32⟩
  | .hbm, ⟨12, _⟩ => ⟨S2048x240x360, .f32⟩
  | .hbm, ⟨13, _⟩ => ⟨S2048x240x360, .f32⟩
  | .hbm, ⟨14, _⟩ => ⟨S2048x240x90, .f32⟩
  | .hbm, ⟨15, _⟩ => ⟨S2048x240x90, .f32⟩
  | .hbm, ⟨16, _⟩ => ⟨S2048x240x90, .f32⟩
  | .hbm, ⟨17, _⟩ => ⟨S2048x240x90, .f32⟩
  | .hbm, ⟨18, _⟩ => ⟨S2048x240x90, .f32⟩
  | .hbm, ⟨19, _⟩ => ⟨S2048x240x90, .f32⟩
  | .hbm, ⟨20, _⟩ => ⟨S_, .f32⟩
  | .hbm, ⟨21, _⟩ => ⟨S2048x240x90, .f32⟩
  | .hbm, ⟨22, _⟩ => ⟨S2048x240x90, .f32⟩
  | .hbm, ⟨23, _⟩ => ⟨S_, .f32⟩
  | .hbm, ⟨24, _⟩ => ⟨S2048x240x90, .f32⟩
  | .hbm, ⟨25, _⟩ => ⟨S2048x240x90, .f32⟩
  | .hbm, ⟨26, _⟩ => ⟨S2048x240x90, .f32⟩
  | .hbm, ⟨27, _⟩ => ⟨S2048x240x90, .f32⟩
  | .hbm, ⟨28, _⟩ => ⟨S2048x240x90, .f32⟩
  | .hbm, ⟨29, _⟩ => ⟨S2048x240x90, .f32⟩
  | .hbm, ⟨30, _⟩ => ⟨S_, .f32⟩
  | .hbm, ⟨31, _⟩ => ⟨S2048x240x90, .f32⟩
  | .hbm, ⟨32, _⟩ => ⟨S2048x240x90, .f32⟩
  | .hbm, ⟨33, _⟩ => ⟨S_, .f32⟩
  | .hbm, ⟨34, _⟩ => ⟨S2048x240x90, .f32⟩
  | .hbm, ⟨35, _⟩ => ⟨S2048x240x90, .f32⟩
  | .hbm, ⟨36, _⟩ => ⟨S2048x240x90, .f32⟩
  | .hbm, ⟨37, _⟩ => ⟨S2048x240x90, .f32⟩
  | .hbm, ⟨38, _⟩ => ⟨S2048x21600, .f32⟩
  | .hbm, ⟨39, _⟩ => ⟨S21600x40, .f32⟩
  | .hbm, ⟨40, _⟩ => ⟨S2048x40, .f32⟩
  | .hbm, ⟨41, _⟩ => ⟨S1x40, .f32⟩
  | .hbm, ⟨42, _⟩ => ⟨S2048x40, .f32⟩
  | .hbm, ⟨43, _⟩ => ⟨S2048x40, .f32⟩
  | .hbm, ⟨44, _⟩ => ⟨S2048x4x10, .f32⟩
  | .hbm, ⟨45, _⟩ => ⟨S_, .f32⟩
  | .hbm, ⟨46, _⟩ => ⟨S2048x4, .f32⟩
  | .hbm, ⟨47, _⟩ => ⟨S_, .f32⟩
  | .hbm, ⟨48, _⟩ => ⟨S2048x4, .f32⟩
  | .hbm, ⟨49, _⟩ => ⟨S2048x4, .f32⟩
  | .hbm, ⟨50, _⟩ => ⟨S2048x4x1, .f32⟩
  | .hbm, ⟨51, _⟩ => ⟨S2048x4x10, .f32⟩
  | .hbm, ⟨52, _⟩ => ⟨S2048x4x10, .f32⟩
  | .hbm, ⟨53, _⟩ => ⟨S2048x4x10, .f32⟩
  | .hbm, ⟨54, _⟩ => ⟨S_, .f32⟩
  | .hbm, ⟨55, _⟩ => ⟨S2048x4, .f32⟩
  | .hbm, ⟨56, _⟩ => ⟨S2048x4x1, .f32⟩
  | .hbm, ⟨57, _⟩ => ⟨S2048x4x10, .f32⟩
  | .hbm, ⟨58, _⟩ => ⟨S2048x4x10, .f32⟩
  | _, _ => ⟨S2048x240x90, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]

class Facts₀ : Prop where
  bcast_S360_S1x1x360_2 : S360.BroadcastsInDim S1x1x360 (![2] : Fin 1 → Fin S1x1x360.rank)
  bcast_S1x1x360_S2048x240x360_0_1_2 : S1x1x360.BroadcastsInDim S2048x240x360 (![0, 1, 2] : Fin 3 → Fin S2048x240x360.rank)
  slices_S2048x240x360_S2048x240x90_0_0_0 : S2048x240x360.Slices ![0, 0, 0] S2048x240x90
  slices_S2048x240x360_S2048x240x90_0_0_90 : S2048x240x360.Slices ![0, 0, 90] S2048x240x90
  slices_S2048x240x360_S2048x240x90_0_0_180 : S2048x240x360.Slices ![0, 0, 180] S2048x240x90
  slices_S2048x240x360_S2048x240x90_0_0_270 : S2048x240x360.Slices ![0, 0, 270] S2048x240x90
  bcast_S_S2048x240x90 : S_.BroadcastsInDim S2048x240x90 (![] : Fin 0 → Fin S2048x240x90.rank)
  shapeCasts_S2048x240x90_S2048x21600 : S2048x240x90.ShapeCasts S2048x21600
  transposes_S40x21600_S21600x40_1_0 : S40x21600.Transposes [1, 0] S21600x40
  bcast_S40_S1x40_1 : S40.BroadcastsInDim S1x40 (![1] : Fin 1 → Fin S1x40.rank)
  bcast_S1x40_S2048x40_0_1 : S1x40.BroadcastsInDim S2048x40 (![0, 1] : Fin 2 → Fin S2048x40.rank)
  shapeCasts_S2048x40_S2048x4x10 : S2048x40.ShapeCasts S2048x4x10
  reducesTo_S2048x4x10_S2048x4_d2 : S2048x4x10.ReducesTo [2] S2048x4
  h_S_ : 0 < S_.numel
  bcast_S_S2048x4 : S_.BroadcastsInDim S2048x4 (![] : Fin 0 → Fin S2048x4.rank)
  bcast_S2048x4_S2048x4x1_0_1 : S2048x4.BroadcastsInDim S2048x4x1 (![0, 1] : Fin 2 → Fin S2048x4x1.rank)
  bcast_S2048x4x1_S2048x4x10_0_1_2 : S2048x4x1.BroadcastsInDim S2048x4x10 (![0, 1, 2] : Fin 3 → Fin S2048x4x10.rank)
  dot_S2048x240x90_S360x90_S2048x240x360_2_1_01_0_n_n_wf : DotDims.WF S2048x240x90 S360x90 S2048x240x360 [2] [1] [0, 1] [0] [] []
  dot_S2048x21600_S21600x40_S2048x40_1_0_0_1_n_n_wf : DotDims.WF S2048x21600 S21600x40 S2048x40 [1] [0] [0] [1] [] []

variable [Facts₀]

def dot_S2048x240x90_S360x90_S2048x240x360_2_1_01_0_n_n : DotDims S2048x240x90 S360x90 S2048x240x360 where
  lhsContracting := [2]
  rhsContracting := [1]
  lhsNonContracting := [0, 1]
  rhsNonContracting := [0]
  lhsBatch := []
  rhsBatch := []
  wf := dot_S2048x240x90_S360x90_S2048x240x360_2_1_01_0_n_n_wf
def dot_S2048x21600_S21600x40_S2048x40_1_0_0_1_n_n : DotDims S2048x21600 S21600x40 S2048x40 where
  lhsContracting := [1]
  rhsContracting := [0]
  lhsNonContracting := [0]
  rhsNonContracting := [1]
  lhsBatch := []
  rhsBatch := []
  wf := dot_S2048x21600_S21600x40_S2048x40_1_0_0_1_n_n_wf

class Facts : Prop extends Facts₀ where

variable [Facts]
-- ==== Proof.Spec.lean ====
/-
  The mathematics both programs compute, as functions of the argument arrays over the extended reals.

  For a batch row b, a time step t and a gate row g the pre-activation is
      gate b t g = (∑ e, x[b,t,e] · W[g,e]) + B[g]
  (B the sum of the two bias vectors), and the cell's output with zero initial state is
      hid b t d = σ(gate b t (270+d)) · tanh(σ(gate b t d) · tanh(gate b t (180+d))),
  the forget gate (rows 90..179) never being read. The head is the linear map of the flattened (t, d) axis,
      lin b n = (∑ k < 21600, hid b (k / 90) (k % 90) · Wo[n,k]) + bo[n].
  The first two extents of x are parameters so that the same formulas speak of a block of rows and steps.
-/
import Idealize.ShloMosaic.PureOps.Ideal
import Idealize.ShloMosaic.PureOps.Ideal.Laws
import Idealize.ShloMosaic.Lib.ValueIdx

noncomputable section

namespace Cert.LstmHead

open Idealize.ShloMosaic Idealize.ShloMosaic.ValueIdx

variable {nb nt : ℕ}

/-- The pre-activation of gate row `g` at row `b`, step `t`: the inner product of the input's 90 features with row `g` of
    the weights, plus the bias. -/
def gate (X : (⟨3, ![nb, nt, 90]⟩ : Shape).Idx → EReal) (W : (⟨2, ![360, 90]⟩ : Shape).Idx → EReal)
    (B : (⟨1, ![360]⟩ : Shape).Idx → EReal) (b : Fin nb) (t : Fin nt) (g : Fin 360) : EReal :=
  (∑ e : Fin 90, X (ix3 b t e) * W (ix2 g e)) + B (ix1 g)

/-- The cell's output from zero state: output gate times tanh of (input gate times candidate). -/
def hid (X : (⟨3, ![nb, nt, 90]⟩ : Shape).Idx → EReal) (W : (⟨2, ![360, 90]⟩ : Shape).Idx → EReal)
    (B : (⟨1, ![360]⟩ : Shape).Idx → EReal) (b : Fin nb) (t : Fin nt) (d : Fin 90) : EReal :=
  Ideal.logistic (gate X W B b t ⟨270 + d.val, by omega⟩)
    * Ideal.tanh (Ideal.logistic (gate X W B b t ⟨d.val, by omega⟩) * Ideal.tanh (gate X W B b t ⟨180 + d.val, by omega⟩))

/-- The cell's output depends on the arrays only through the entries it reads: a block of rows and steps read at
    offsets, with the same weights and bias, computes the whole array's output at the shifted position. -/
theorem hid_read {nb' nt' : ℕ} (X : (⟨3, ![nb, nt, 90]⟩ : Shape).Idx → EReal) (X' : (⟨3, ![nb', nt', 90]⟩ : Shape).Idx → EReal)
    (W W' : (⟨2, ![360, 90]⟩ : Shape).Idx → EReal) (B B' : (⟨1, ![360]⟩ : Shape).Idx → EReal)
    (b : Fin nb) (t : Fin nt) (b' : Fin nb') (t' : Fin nt') (hX : ∀ e : Fin 90, X' (ix3 b' t' e) = X (ix3 b t e))
    (hW : ∀ (g : Fin 360) (e : Fin 90), W' (ix2 g e) = W (ix2 g e)) (hB : ∀ g : Fin 360, B' (ix1 g) = B (ix1 g)) (d : Fin 90) :
    hid X' W' B' b' t' d = hid X W B b t d := by
  unfold hid gate
  simp only [hX, hW, hB]

/-- One block's contribution to the head: the steps and features of the block, against the matching block of the head's weights. -/
def blockAcc (X : (⟨3, ![nb, nt, 90]⟩ : Shape).Idx → EReal) (W : (⟨2, ![360, 90]⟩ : Shape).Idx → EReal)
    (B : (⟨1, ![360]⟩ : Shape).Idx → EReal) (Wo : (⟨3, ![40, nt, 90]⟩ : Shape).Idx → EReal) (b : Fin nb) (n : Fin 40) : EReal :=
  ∑ t : Fin nt, ∑ d : Fin 90, hid X W B b t d * Wo (ix3 n t d)

/-- The head before the softmax. -/
def lin (X : (⟨3, ![2048, 240, 90]⟩ : Shape).Idx → EReal) (W : (⟨2, ![360, 90]⟩ : Shape).Idx → EReal)
    (B : (⟨1, ![360]⟩ : Shape).Idx → EReal) (Wo : (⟨2, ![40, 21600]⟩ : Shape).Idx → EReal) (bo : (⟨1, ![40]⟩ : Shape).Idx → EReal)
    (b : Fin 2048) (n : Fin 40) : EReal :=
  (∑ k : Fin 21600, hid X W B b ⟨k.val / 90, by omega⟩ ⟨k.val % 90, by omega⟩ * Wo (ix2 n k)) + bo (ix1 n)

/-- The same as an array over [2048, 40]. -/
def linArr (X : (⟨3, ![2048, 240, 90]⟩ : Shape).Idx → EReal) (W : (⟨2, ![360, 90]⟩ : Shape).Idx → EReal)
    (B : (⟨1, ![360]⟩ : Shape).Idx → EReal) (Wo : (⟨2, ![40, 21600]⟩ : Shape).Idx → EReal) (bo : (⟨1, ![40]⟩ : Shape).Idx → EReal) :
    (⟨2, ![2048, 40]⟩ : Shape).Idx → EReal :=
  fun i => lin X W B Wo bo (i 0) (i 1)

/-! ## Sums -/

/-- A sum over `a · b` positions is the sum over `a` groups of `b`, position `j + b · i` being the `j`-th of group `i`. -/
theorem sum_fin_mul {M : Type*} [AddCommMonoid M] (a b : ℕ) (f : Fin (a * b) → M) :
    ∑ k, f k = ∑ i : Fin a, ∑ j : Fin b, f (finProdFinEquiv (i, j)) := by
  rw [← Equiv.sum_comp finProdFinEquiv f, Fintype.sum_prod_type]

/-- A sum over the first `n + 1` naturals below `N`, of a function given on `Fin N`. -/
def partialSum {N : ℕ} (f : Fin N → EReal) (n : ℕ) : EReal :=
  ∑ j ∈ Finset.range n, if h : j < N then f ⟨j, h⟩ else 0

theorem partialSum_zero {N : ℕ} (f : Fin N → EReal) : partialSum f 0 = 0 := by
  unfold partialSum; rw [Finset.sum_range_zero]

theorem partialSum_succ {N : ℕ} (f : Fin N → EReal) (n : ℕ) (h : n < N) :
    partialSum f (n + 1) = partialSum f n + f ⟨n, h⟩ := by
  unfold partialSum; rw [Finset.sum_range_succ, dif_pos h]

/-- The same with the new term named by any spelling of its position. -/
theorem partialSum_step {N : ℕ} (f : Fin N → EReal) (n : ℕ) (j : Fin N) (hj : j.val = n) :
    partialSum f (n + 1) = partialSum f n + f j := by
  subst hj
  exact partialSum_succ f j.val j.isLt

theorem partialSum_all {N : ℕ} (f : Fin N → EReal) : partialSum f N = ∑ j : Fin N, f j := by
  unfold partialSum
  rw [Finset.sum_range]
  exact Finset.sum_congr rfl fun j _ => by rw [dif_pos j.isLt]

/-- Twenty-four terms added one after the other from zero are their sum. -/
theorem chain24 (f : Fin 24 → EReal) :
    ((((((((((((((((((((((((0 + f 0) + f 1) + f 2) + f 3) + f 4) + f 5) + f 6) + f 7) + f 8) + f 9) + f 10) + f 11) + f 12)
      + f 13) + f 14) + f 15) + f 16) + f 17) + f 18) + f 19) + f 20) + f 21) + f 22) + f 23) = ∑ t : Fin 24, f t := by
  rw [← partialSum_all f]
  simp only [partialSum, Finset.sum_range_succ, Finset.sum_range_zero]
  rfl

end Cert.LstmHead

end
-- ==== Proof.Regroup.lean ====
/-
  The head's sum over the flattened axis k = t · 90 + d (21600 terms) regrouped the way the kernel walks it:
  ten time tiles j of 24 steps tl, t = j · 24 + tl, each step 90 features d. Addition on the extended reals is
  commutative and associative (no subtraction occurs), so the regrouping holds for every input, finite or not.
  The head's weights enter the kernel reshaped to [40, 240, 90]: entry (n, t, d) is entry (n, t · 90 + d).
-/
import proofs.«126252_j8718783611480_1_alg».proof.Proof.Spec

noncomputable section

namespace Cert.LstmHead

open Idealize.ShloMosaic Idealize.ShloMosaic.ValueIdx

/-- A sum over `N = a · b` positions, by groups: position `j + b · i` is the `j`-th of group `i`. -/
theorem sum_split {M : Type*} [AddCommMonoid M] (a b N : ℕ) (hN : a * b = N) (f : Fin N → M) :
    ∑ k, f k = ∑ i : Fin a, ∑ j : Fin b, f ⟨j.val + b * i.val, by
      have hi := i.isLt; have hj := j.isLt
      calc j.val + b * i.val < b + b * i.val := by omega
        _ = b * (i.val + 1) := by ring
        _ ≤ b * a := Nat.mul_le_mul_left b hi
        _ = N := by rw [Nat.mul_comm]; exact hN⟩ := by
  subst hN
  rw [sum_fin_mul]
  rfl

/-- One time tile's contribution to the head at batch row `b`, class `n`: steps `j · 24 + tl`, all features, against the
    head's weights in their [40, 240, 90] arrangement. -/
def tile (X : (⟨3, ![2048, 240, 90]⟩ : Shape).Idx → EReal) (W : (⟨2, ![360, 90]⟩ : Shape).Idx → EReal)
    (B : (⟨1, ![360]⟩ : Shape).Idx → EReal) (Wo3 : (⟨3, ![40, 240, 90]⟩ : Shape).Idx → EReal) (b : Fin 2048) (n : Fin 40)
    (j : Fin 10) : EReal :=
  ∑ tl : Fin 24, ∑ d : Fin 90, hid X W B b ⟨j.val * 24 + tl.val, by omega⟩ d * Wo3 (ix3 n ⟨j.val * 24 + tl.val, by omega⟩ d)

/-- The ten tiles and the bias are the head. -/
theorem tiles_eq_lin (X : (⟨3, ![2048, 240, 90]⟩ : Shape).Idx → EReal) (W : (⟨2, ![360, 90]⟩ : Shape).Idx → EReal)
    (B : (⟨1, ![360]⟩ : Shape).Idx → EReal) (Wo : (⟨2, ![40, 21600]⟩ : Shape).Idx → EReal) (bo : (⟨1, ![40]⟩ : Shape).Idx → EReal)
    (Wo3 : (⟨3, ![40, 240, 90]⟩ : Shape).Idx → EReal)
    (hWo : ∀ (n : Fin 40) (t : Fin 240) (d : Fin 90), Wo3 (ix3 n t d) = Wo (ix2 n ⟨t.val * 90 + d.val, by omega⟩))
    (b : Fin 2048) (n : Fin 40) :
    (∑ j : Fin 10, tile X W B Wo3 b n j) + bo (ix1 n) = lin X W B Wo bo b n := by
  unfold lin tile
  refine congrArg (· + bo (ix1 n)) ?_
  rw [sum_split 240 90 21600 rfl, sum_split 10 24 240 rfl]
  refine Finset.sum_congr rfl fun j _ => Finset.sum_congr rfl fun tl _ => Finset.sum_congr rfl fun d _ => ?_
  have hj := j.isLt; have htl := tl.isLt; have hd := d.isLt
  have e1 : (⟨(d.val + 90 * (tl.val + 24 * j.val)) / 90, by omega⟩ : Fin 240) = ⟨j.val * 24 + tl.val, by omega⟩ :=
    Fin.ext (by show (d.val + 90 * (tl.val + 24 * j.val)) / 90 = j.val * 24 + tl.val; omega)
  have e2 : (⟨(d.val + 90 * (tl.val + 24 * j.val)) % 90, by omega⟩ : Fin 90) = d :=
    Fin.ext (by show (d.val + 90 * (tl.val + 24 * j.val)) % 90 = d.val; omega)
  have e3 : (⟨d.val + 90 * (tl.val + 24 * j.val), by omega⟩ : Fin 21600) = ⟨(j.val * 24 + tl.val) * 90 + d.val, by omega⟩ :=
    Fin.ext (by show d.val + 90 * (tl.val + 24 * j.val) = (j.val * 24 + tl.val) * 90 + d.val; omega)
  rw [hWo]
  show hid X W B b ⟨j.val * 24 + tl.val, _⟩ d * Wo (ix2 n ⟨(j.val * 24 + tl.val) * 90 + d.val, _⟩)
    = hid X W B b ⟨(d.val + 90 * (tl.val + 24 * j.val)) / 90, _⟩ ⟨(d.val + 90 * (tl.val + 24 * j.val)) % 90, _⟩
      * Wo (ix2 n ⟨d.val + 90 * (tl.val + 24 * j.val), _⟩)
  rw [e1, e2, e3]

end Cert.LstmHead

end
-- ==== Proof.Pieces.lean ====
/-
  What the kernel's body leaves in its output block at one grid point, case by case, as a value: the block is an
  accumulator over the ten time tiles of a row of blocks. At the first tile it is reset to zero and the tile's sum
  added; at a middle tile the tile's sum is added to what the tile before left; at the last tile the head's bias is
  added on top. The tile's sum is one function of the four input blocks (`accTerm`).
-/
import proofs.«126252_j8718783611480_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- What one grid point adds to its output block, as a function of the four input blocks it loads: the twenty-four
    per-step products accumulated from zero. -/
def accTerm (x0 : Vec F S256x24x90 .f32) (x1 : Vec F S360x90 .f32) (x2 : Vec F S360 .f32) (x3 : Vec F S40x24x90 .f32) : FVec F S256x40 .f32 :=
  k0_pay14 (k0_pay4 x0 x1 x2) (k0_pay5 x3)
    (k0_pay11 (k0_pay4 x0 x1 x2) (k0_pay5 x3)
      (k0_pay9 (k0_pay4 x0 x1 x2) (k0_pay5 x3) (k0_pay6 x0 x1 x2 x3) (k0_pay7 x0 x1 x2) (k0_pay8 x3) (constant S256x40 .f32 0x00000000#32))
      (k0_pay10 (k0_pay4 x0 x1 x2)))
    (k0_pay12 (k0_pay4 x0 x1 x2)) (k0_pay13 (k0_pay5 x3)) (constant S256x40 .f32 0x00000000#32)

/-- A middle step of a row of blocks: the block's running contents plus this point's sum. -/
theorem out_B (c : Dev nD) (i : grid0.Coords) (arg2 : Memref sig .tc .vmem S256x24x90 .f32) (harg2 : arg2.IsWhole) (arg3 : Memref sig .tc .vmem S360x90 .f32) (harg3 : arg3.IsWhole) (arg4 : Memref sig .tc .vmem S360 .f32) (harg4 : arg4.IsWhole) (arg5 : Memref sig .tc .vmem S40x24x90 .f32) (harg5 : arg5.IsWhole) (arg6 : Memref sig .tc .vmem S40 .f32) (harg6 : arg6.IsWhole) (arg7 : Memref sig .tc .vmem S256x40 .f32) (harg7 : arg7.IsWhole) (hc0 : ¬cond0_0 i) (hc1 : ¬cond0_1 i) (x0 : Vec F S256x24x90 .f32) (x1 : Vec F S360x90 .f32) (x2 : Vec F S360 .f32) (x3 : Vec F S40x24x90 .f32) (x4 : Vec F S40 .f32) (xo5 : Vec F S256x40 .f32) :
    out0_B_5 c i arg2 harg2 arg3 harg3 arg4 harg4 arg5 harg5 arg6 harg6 arg7 harg7 hc0 hc1 x0 x1 x2 x3 x4 xo5 = addf xo5 (accTerm x0 x1 x2 x3) := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_unit_zero hz2]
  unfold k0_pay1 accTerm
  simp only [View.readAt_eq_ld, harg2.read_unread, harg3.read_unread, harg4.read_unread, harg5.read_unread, harg7.read_unread,
    View.ld_unit_zero (S := S256x40) hz2, View.ld_unit_zero (S := S256x24x90) hz3, View.ld_unit_zero (S := S360x90) hz2,
    View.ld_unit_zero (S := S360) hz1, View.ld_unit_zero (S := S40x24x90) hz3, shapeCast_self]

/-- The first step of a row of blocks: the block is reset to zero, then this point's sum is added. -/
theorem out_A (c : Dev nD) (i : grid0.Coords) (arg2 : Memref sig .tc .vmem S256x24x90 .f32) (harg2 : arg2.IsWhole) (arg3 : Memref sig .tc .vmem S360x90 .f32) (harg3 : arg3.IsWhole) (arg4 : Memref sig .tc .vmem S360 .f32) (harg4 : arg4.IsWhole) (arg5 : Memref sig .tc .vmem S40x24x90 .f32) (harg5 : arg5.IsWhole) (arg6 : Memref sig .tc .vmem S40 .f32) (harg6 : arg6.IsWhole) (arg7 : Memref sig .tc .vmem S256x40 .f32) (harg7 : arg7.IsWhole) (hc0 : cond0_0 i) (hc1 : ¬cond0_1 i) (x0 : Vec F S256x24x90 .f32) (x1 : Vec F S360x90 .f32) (x2 : Vec F S360 .f32) (x3 : Vec F S40x24x90 .f32) (x4 : Vec F S40 .f32) :
    out0_A_5 c i arg2 harg2 arg3 harg3 arg4 harg4 arg5 harg5 arg6 harg6 arg7 harg7 hc0 hc1 x0 x1 x2 x3 x4 = addf k0_pay3 (accTerm x0 x1 x2 x3) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S256x40) hz2, View.readCov_unit_zero (S := S256x40) _ hz2]
  unfold k0_pay1 accTerm
  simp only [View.readAt_eq_ld, harg2.read_unread, harg3.read_unread, harg4.read_unread, harg5.read_unread, harg7.read_unread,
    View.ld_unit_zero (S := S256x40) hz2, View.ld_unit_zero (S := S256x24x90) hz3, View.ld_unit_zero (S := S360x90) hz2,
    View.ld_unit_zero (S := S360) hz1, View.ld_unit_zero (S := S40x24x90) hz3, shapeCast_self]

/-- The last step of a row of blocks: the running contents plus this point's sum, then the head's bias added to every row. -/
theorem out_C (c : Dev nD) (i : grid0.Coords) (arg2 : Memref sig .tc .vmem S256x24x90 .f32) (harg2 : arg2.IsWhole) (arg3 : Memref sig .tc .vmem S360x90 .f32) (harg3 : arg3.IsWhole) (arg4 : Memref sig .tc .vmem S360 .f32) (harg4 : arg4.IsWhole) (arg5 : Memref sig .tc .vmem S40x24x90 .f32) (harg5 : arg5.IsWhole) (arg6 : Memref sig .tc .vmem S40 .f32) (harg6 : arg6.IsWhole) (arg7 : Memref sig .tc .vmem S256x40 .f32) (harg7 : arg7.IsWhole) (hc0 : ¬cond0_0 i) (hc1 : cond0_1 i) (x0 : Vec F S256x24x90 .f32) (x1 : Vec F S360x90 .f32) (x2 : Vec F S360 .f32) (x3 : Vec F S40x24x90 .f32) (x4 : Vec F S40 .f32) (xo5 : Vec F S256x40 .f32) :
    out0_C_5 c i arg2 harg2 arg3 harg3 arg4 harg4 arg5 harg5 arg6 harg6 arg7 harg7 hc0 hc1 x0 x1 x2 x3 x4 xo5 = k0_pay2 (addf xo5 (accTerm x0 x1 x2 x3)) x4 := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S256x40) hz2, View.readCov_unit_zero (S := S256x40) _ hz2]
  unfold k0_pay1 accTerm
  simp only [View.readAt_eq_ld, harg2.read_unread, harg3.read_unread, harg4.read_unread, harg5.read_unread, harg6.read_unread, harg7.read_unread,
    View.ld_unit_zero (S := S256x40) hz2, View.ld_unit_zero (S := S256x24x90) hz3, View.ld_unit_zero (S := S360x90) hz2,
    View.ld_unit_zero (S := S360) hz1, View.ld_unit_zero (S := S40x24x90) hz3, View.ld_unit_zero (S := S40) hz1, shapeCast_self]

end Cert.KernelIdeal.Body
end
-- ==== Proof.BodyValue.lean ====
/-
  The kernel body's arithmetic read at an index, over the extended reals. The block of inputs is flattened to
  6144 = 256 · 24 rows (row p · 24 + tl is batch row p at step tl), multiplied by the transposed gate weights,
  the bias added, the three live gate slices cut out (columns 0.., 180.., 270..), passed through σ and tanh, and
  folded back to [256, 24, 90]; the roundings to bf16 are the identity here. For each of the 24 steps the slice
  of cell outputs [256, 90] is multiplied by the transposed slice of the head's weights [90, 40], and the 24
  products are added one after the other from zero: entry (p, n) of the result is the sum over steps and
  features of cell output times head weight (`blockAcc`).
-/
import proofs.«126252_j8718783611480_1_alg».proof.Proof.Gen.KernelIdeal.Frame
import proofs.«126252_j8718783611480_1_alg».proof.Proof.Spec
import proofs.«126252_j8718783611480_1_alg».proof.Proof.Pieces
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.BodyValue
open Cert.KernelIdeal Cert.KernelIdeal.Gen

variable {F : FTy → Type} [FloatOps F]

open Cert.LstmHead Idealize.ShloMosaic.ValueIdx

theorem mmGates_l0 (i : S6144x360.Idx) (q : dot_S6144x90_S90x360_S6144x360_1_0_0_1_n_n.contr.Idx) : (dot_S6144x90_S90x360_S6144x360_1_0_0_1_n_n.lhsIdx i q 0).val = (i 0).val := by
  unfold DotDims.lhsIdx
  rw [dif_neg (show ¬(0 : Fin S6144x90.rank) ∈ dot_S6144x90_S90x360_S6144x360_1_0_0_1_n_n.lhsBatch by decide), dif_pos (show (0 : Fin S6144x90.rank) ∈ dot_S6144x90_S90x360_S6144x360_1_0_0_1_n_n.lhsNonContracting by decide)]
  rfl
theorem mmGates_r1 (i : S6144x360.Idx) (q : dot_S6144x90_S90x360_S6144x360_1_0_0_1_n_n.contr.Idx) : (dot_S6144x90_S90x360_S6144x360_1_0_0_1_n_n.rhsIdx i q 1).val = (i 1).val := by
  unfold DotDims.rhsIdx
  rw [dif_neg (show ¬(1 : Fin S90x360.rank) ∈ dot_S6144x90_S90x360_S6144x360_1_0_0_1_n_n.rhsBatch by decide), dif_pos (show (1 : Fin S90x360.rank) ∈ dot_S6144x90_S90x360_S6144x360_1_0_0_1_n_n.rhsNonContracting by decide)]
  rfl
/-- The first matrix product into a zero accumulator, at an entry: the inner product of a row of the left operand with a column of the right. -/
theorem mmGates (l : FVec Ideal S6144x90 .bf16) (r : FVec Ideal S90x360 .bf16) (i : Fin 6144) (j : Fin 360) :
    matmul dot_S6144x90_S90x360_S6144x360_1_0_0_1_n_n none l r (constant S6144x360 .f32 0x00000000#32) (ix2 i j) = ∑ e : Fin 90, l (ix2 i e) * r (ix2 e j) := by
  refine (Ideal.matmul_constant_zero_apply dot_S6144x90_S90x360_S6144x360_1_0_0_1_n_n none l r (ix2 i j)).trans ?_
  rw [← Equiv.sum_comp (contrEquiv1 dot_S6144x90_S90x360_S6144x360_1_0_0_1_n_n 90 rfl rfl).symm]
  refine Finset.sum_congr rfl fun e _ => ?_
  have hk := contrEquiv1_symm_val dot_S6144x90_S90x360_S6144x360_1_0_0_1_n_n 90 rfl rfl e
  have el : dot_S6144x90_S90x360_S6144x360_1_0_0_1_n_n.lhsIdx (ix2 i j) ((contrEquiv1 dot_S6144x90_S90x360_S6144x360_1_0_0_1_n_n 90 rfl rfl).symm e) = ix2 i e := funext fun a => Fin.ext (by
    match a with
    | ⟨0, _⟩ => exact mmGates_l0 _ _
    | ⟨1, _⟩ => exact (dot_S6144x90_S90x360_S6144x360_1_0_0_1_n_n.lhsIdx_val_of_single rfl _ _).trans hk)
  have er : dot_S6144x90_S90x360_S6144x360_1_0_0_1_n_n.rhsIdx (ix2 i j) ((contrEquiv1 dot_S6144x90_S90x360_S6144x360_1_0_0_1_n_n 90 rfl rfl).symm e) = ix2 e j := funext fun a => Fin.ext (by
    match a with
    | ⟨0, _⟩ => exact (dot_S6144x90_S90x360_S6144x360_1_0_0_1_n_n.rhsIdx_val_of_single rfl _ _).trans hk
    | ⟨1, _⟩ => exact mmGates_r1 _ _)
  rw [el, er]

theorem mmHead_l0 (i : S256x40.Idx) (q : dot_S256x90_S90x40_S256x40_1_0_0_1_n_n.contr.Idx) : (dot_S256x90_S90x40_S256x40_1_0_0_1_n_n.lhsIdx i q 0).val = (i 0).val := by
  unfold DotDims.lhsIdx
  rw [dif_neg (show ¬(0 : Fin S256x90.rank) ∈ dot_S256x90_S90x40_S256x40_1_0_0_1_n_n.lhsBatch by decide), dif_pos (show (0 : Fin S256x90.rank) ∈ dot_S256x90_S90x40_S256x40_1_0_0_1_n_n.lhsNonContracting by decide)]
  rfl
theorem mmHead_r1 (i : S256x40.Idx) (q : dot_S256x90_S90x40_S256x40_1_0_0_1_n_n.contr.Idx) : (dot_S256x90_S90x40_S256x40_1_0_0_1_n_n.rhsIdx i q 1).val = (i 1).val := by
  unfold DotDims.rhsIdx
  rw [dif_neg (show ¬(1 : Fin S90x40.rank) ∈ dot_S256x90_S90x40_S256x40_1_0_0_1_n_n.rhsBatch by decide), dif_pos (show (1 : Fin S90x40.rank) ∈ dot_S256x90_S90x40_S256x40_1_0_0_1_n_n.rhsNonContracting by decide)]
  rfl
/-- One step's product for the head into a zero accumulator, at an entry. -/
theorem mmHead (l : FVec Ideal S256x90 .bf16) (r : FVec Ideal S90x40 .bf16) (i : Fin 256) (j : Fin 40) :
    matmul dot_S256x90_S90x40_S256x40_1_0_0_1_n_n none l r (constant S256x40 .f32 0x00000000#32) (ix2 i j) = ∑ e : Fin 90, l (ix2 i e) * r (ix2 e j) := by
  refine (Ideal.matmul_constant_zero_apply dot_S256x90_S90x40_S256x40_1_0_0_1_n_n none l r (ix2 i j)).trans ?_
  rw [← Equiv.sum_comp (contrEquiv1 dot_S256x90_S90x40_S256x40_1_0_0_1_n_n 90 rfl rfl).symm]
  refine Finset.sum_congr rfl fun e _ => ?_
  have hk := contrEquiv1_symm_val dot_S256x90_S90x40_S256x40_1_0_0_1_n_n 90 rfl rfl e
  have el : dot_S256x90_S90x40_S256x40_1_0_0_1_n_n.lhsIdx (ix2 i j) ((contrEquiv1 dot_S256x90_S90x40_S256x40_1_0_0_1_n_n 90 rfl rfl).symm e) = ix2 i e := funext fun a => Fin.ext (by
    match a with
    | ⟨0, _⟩ => exact mmHead_l0 _ _
    | ⟨1, _⟩ => exact (dot_S256x90_S90x40_S256x40_1_0_0_1_n_n.lhsIdx_val_of_single rfl _ _).trans hk)
  have er : dot_S256x90_S90x40_S256x40_1_0_0_1_n_n.rhsIdx (ix2 i j) ((contrEquiv1 dot_S256x90_S90x40_S256x40_1_0_0_1_n_n 90 rfl rfl).symm e) = ix2 e j := funext fun a => Fin.ext (by
    match a with
    | ⟨0, _⟩ => exact (dot_S256x90_S90x40_S256x40_1_0_0_1_n_n.rhsIdx_val_of_single rfl _ _).trans hk
    | ⟨1, _⟩ => exact mmHead_r1 _ _)
  rw [el, er]

/-- Row `p · 24 + tl` of the block flattened to 6144 rows: batch row `p`, step `tl`. -/
def row (p : Fin 256) (tl : Fin 24) : Fin 6144 := ⟨p.val * 24 + tl.val, by omega⟩

theorem flat_apply {φ : FTy} (v : FVec Ideal S256x24x90 φ) (h : S256x24x90.ShapeCasts S6144x90) (p : Fin 256) (tl : Fin 24) (e : Fin 90) :
    shapeCast S6144x90 v h (ix2 (row p tl) e) = v (ix3 p tl e) :=
  shapeCast_apply v h _ _ (by rw [Shape.rowMajor_val_three, Shape.rowMajor_val_two]; rfl)

theorem unflat_apply {φ : FTy} (v : FVec Ideal S6144x90 φ) (h : S6144x90.ShapeCasts S256x24x90) (p : Fin 256) (tl : Fin 24) (d : Fin 90) :
    shapeCast S256x24x90 v h (ix3 p tl d) = v (ix2 (row p tl) d) :=
  shapeCast_apply v h _ _ (by rw [Shape.rowMajor_val_three, Shape.rowMajor_val_two]; rfl)

/-- The pre-activations of the block, at flattened row (p, tl) and gate row g. -/
theorem gates_apply (x0 : FVec Ideal S256x24x90 .f32) (x1 : FVec Ideal S360x90 .f32) (x2 : FVec Ideal S360 .f32)
    (h1 : S256x24x90.ShapeCasts S6144x90) (h2 : S360x90.Transposes [1, 0] S90x360) (h3 : S360.ShapeCasts S360)
    (h4 : S360.ShapeCasts S1x360) (h5 : S1x360.Broadcasts S6144x360) (p : Fin 256) (tl : Fin 24) (g : Fin 360) :
    addf (matmul dot_S6144x90_S90x360_S6144x360_1_0_0_1_n_n none (shapeCast S6144x90 (truncf .bf16 x0 bitsLt_bf16_f32) h1)
        (transpose S90x360 [1, 0] (truncf .bf16 x1 bitsLt_bf16_f32) h2) (constant S6144x360 .f32 0x00000000#32))
      (broadcastTo S6144x360 (shapeCast S1x360 (shapeCast S360 x2 h3) h4) h5) (ix2 (row p tl) g)
    = gate x0 x1 x2 p tl g := by
  rw [addf_apply, mmGates, shapeCast_self, broadcastTo_1b_ab_apply, shapeCast_a_1a_apply]
  unfold gate
  refine congrArg (· + x2 (ix1 g)) (Finset.sum_congr rfl fun e _ => ?_)
  rw [flat_apply, transpose_ix2_apply]
  rfl

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The block's cell outputs (rounded to bf16, which is the identity on the extended reals), at row p, step tl, feature d. -/
theorem hidden_apply (x0 : Vec Ideal S256x24x90 .f32) (x1 : Vec Ideal S360x90 .f32) (x2 : Vec Ideal S360 .f32)
    (p : Fin 256) (tl : Fin 24) (d : Fin 90) :
    k0_pay4 (F := Ideal) x0 x1 x2 (ix3 p tl d) = hid x0 x1 x2 p tl d := by
  unfold k0_pay4
  dsimp only
  rw [truncf_apply, unflat_apply, mulf_apply, logistic_apply, tanh_apply, mulf_apply, logistic_apply, tanh_apply,
    slice2_axis1_eq, slice2_axis1_eq, slice2_axis1_eq]
  simp only [Nat.zero_add]
  rw [gates_apply, gates_apply, gates_apply]
  rfl

/-- The head's weights of the block (rounded to bf16: the identity), at an index. -/
theorem wcast_apply (x3 : Vec Ideal S40x24x90 .f32) (j : S40x24x90.Idx) : k0_pay5 (F := Ideal) x3 j = x3 j := by
  unfold k0_pay5
  rw [truncf_apply, shapeCast_self]

/-- A middle unit axis dropped: [a, 1, b] read as [a, b]. -/
theorem squeeze_apply {α : Type} {a b : ℕ} (v : (⟨3, ![a, 1, b]⟩ : Shape).Idx → α) (h : (⟨3, ![a, 1, b]⟩ : Shape).ShapeCasts ⟨2, ![a, b]⟩)
    (i : Fin a) (j : Fin b) : shapeCast ⟨2, ![a, b]⟩ v h (ix2 i j) = v (ix3 i (0 : Fin 1) j) :=
  shapeCast_apply v h _ _ (by
    rw [Shape.rowMajor_val_three, Shape.rowMajor_val_two]
    show (i.val * 1 + 0) * b + j.val = i.val * b + j.val
    rw [Nat.mul_one, Nat.add_zero])

/-- One step of the head's accumulation: step `k` of the cell outputs against step `k` of the head's weights,
    contracted over the 90 features. -/
theorem head_step (H : FVec Ideal S256x24x90 .bf16) (Wb : FVec Ideal S40x24x90 .bf16) (k : ℕ)
    (hs1 : S256x24x90.Slices ![0, k, 0] S256x1x90) (hc1 : S256x1x90.ShapeCasts S256x90)
    (hs2 : S40x24x90.Slices ![0, k, 0] S40x1x90) (hc2 : S40x1x90.ShapeCasts S40x90) (ht : S40x90.Transposes [1, 0] S90x40)
    (p : Fin 256) (n : Fin 40) :
    matmul dot_S256x90_S90x40_S256x40_1_0_0_1_n_n none (shapeCast S256x90 (extractStridedSlice S256x1x90 ![0, k, 0] H hs1) hc1)
      (transpose S90x40 [1, 0] (shapeCast S40x90 (extractStridedSlice S40x1x90 ![0, k, 0] Wb hs2) hc2) ht)
      (constant S256x40 .f32 0x00000000#32) (ix2 p n)
    = ∑ d : Fin 90, H (ix3 p ⟨k, (hs1.2 1 : k + 1 ≤ 24)⟩ d) * Wb (ix3 n ⟨k, (hs1.2 1 : k + 1 ≤ 24)⟩ d) := by
  rw [mmHead]
  refine Finset.sum_congr rfl fun d _ => ?_
  rw [transpose_ix2_apply, squeeze_apply, squeeze_apply,
    slice3_axis1_apply k H hs1 p (0 : Fin 1) d ⟨k, (hs1.2 1 : k + 1 ≤ 24)⟩ rfl,
    slice3_axis1_apply k Wb hs2 n (0 : Fin 1) d ⟨k, (hs1.2 1 : k + 1 ≤ 24)⟩ rfl]

/-- One grid point's sum, at row p and class n: over the block's 24 steps and 90 features, the cell output times
    the head's weight — the 24 per-step products added one after the other from zero. -/
theorem acc_apply (x0 : Vec Ideal S256x24x90 .f32) (x1 : Vec Ideal S360x90 .f32) (x2 : Vec Ideal S360 .f32)
    (x3 : Vec Ideal S40x24x90 .f32) (p : Fin 256) (n : Fin 40) :
    Body.accTerm (F := Ideal) x0 x1 x2 x3 (ix2 p n) = blockAcc x0 x1 x2 x3 p n := by
  unfold Body.accTerm k0_pay14 k0_pay11 k0_pay9 k0_pay6 k0_pay7 k0_pay8 k0_pay10 k0_pay12 k0_pay13
  dsimp only
  simp only [addf_apply, broadcast_apply]
  repeat rw [head_step]
  simp only [hidden_apply, wcast_apply]
  rw [show (FloatOps.ofBits FTy.f32 0x00000000#32 : Idealize.ShloMosaic.Ideal .f32) = (0 : EReal) from Ideal.ofBits_zero_f32]
  exact chain24 (fun t => ∑ d : Fin 90, hid x0 x1 x2 p t d * x3 (ix3 n t d))

/-- The first time tile of a row of blocks leaves the tile's sum (added to a zero block). -/
theorem first_val (x0 : Vec Ideal S256x24x90 .f32) (x1 : Vec Ideal S360x90 .f32) (x2 : Vec Ideal S360 .f32)
    (x3 : Vec Ideal S40x24x90 .f32) (p : Fin 256) (n : Fin 40) :
    addf (k0_pay3 (F := Ideal)) (Body.accTerm x0 x1 x2 x3) (ix2 p n) = blockAcc x0 x1 x2 x3 p n := by
  rw [addf_apply, acc_apply]
  show (Ideal.ofBits .f32 0x00000000#32 : EReal) + _ = _
  rw [Ideal.ofBits_zero_f32, zero_add]

/-- A middle time tile adds its sum to what the block held. -/
theorem middle_val (xo : Vec Ideal S256x40 .f32) (x0 : Vec Ideal S256x24x90 .f32) (x1 : Vec Ideal S360x90 .f32) (x2 : Vec Ideal S360 .f32)
    (x3 : Vec Ideal S40x24x90 .f32) (p : Fin 256) (n : Fin 40) :
    addf xo (Body.accTerm x0 x1 x2 x3) (ix2 p n) = xo (ix2 p n) + blockAcc x0 x1 x2 x3 p n := by
  rw [addf_apply, acc_apply]

/-- The last time tile adds its sum, then the head's bias of the class. -/
theorem last_val (xo : Vec Ideal S256x40 .f32) (x0 : Vec Ideal S256x24x90 .f32) (x1 : Vec Ideal S360x90 .f32) (x2 : Vec Ideal S360 .f32)
    (x3 : Vec Ideal S40x24x90 .f32) (x4 : Vec Ideal S40 .f32) (p : Fin 256) (n : Fin 40) :
    k0_pay2 (F := Ideal) (addf xo (Body.accTerm x0 x1 x2 x3)) x4 (ix2 p n)
      = (xo (ix2 p n) + blockAcc x0 x1 x2 x3 p n) + x4 (ix1 n) := by
  unfold k0_pay2
  rw [addf_apply, shapeCast_self, addf_apply, acc_apply, broadcastTo_1b_ab_apply, shapeCast_a_1a_apply]

end Cert.KernelIdeal.BodyValue
end
-- ==== Proof.Blocks.lean ====
/-
  From one grid point to the whole result array. The grid has 8 row blocks × 10 time tiles; point t is row block
  t / 10 at tile t % 10. The input block at t is rows (t / 10) · 256 .. of the input at steps (t % 10) · 24 ..; the head
  weights' block is the same steps of their [40, 240, 90] arrangement; the gate weights, the summed bias and the
  head bias are whole at every point. So a point's sum is one time tile of its rows (`pointSum`), the output block
  after point t holds the tiles of its row block up to t's (`running`, by induction on the point), and after the
  tenth tile all ten plus the head's bias (`finished`) — which is the head (`tiles_eq_lin`). Only those points write
  back, each its own 256 rows, and the eight of them cover the [2048, 40] array (`covered`).
-/
import proofs.«126252_j8718783611480_1_alg».proof.Proof.Gen.KernelIdeal.Frame
import proofs.«126252_j8718783611480_1_alg».proof.Proof.Spec
import proofs.«126252_j8718783611480_1_alg».proof.Proof.Regroup
import proofs.«126252_j8718783611480_1_alg».proof.Proof.Pieces
import proofs.«126252_j8718783611480_1_alg».proof.Proof.BodyValue
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Blocks
open Cert.KernelIdeal Cert.KernelIdeal.Gen

variable {F : FTy → Type} [FloatOps F]

open Cert.LstmHead Idealize.ShloMosaic.ValueIdx

variable (m : (ℓ : Loc nD τ sig) → Buf (Elt Ideal) ℓ)

/-- The printed index maps over the grid: point t is row block t / 10 at time tile t % 10; the input rows and the
    head's weights move with them, the small operands stay at block 0, the output's block is the row block. -/
theorem idx_facts : ∀ t : Fin cfg0.N,
    win0_0.index t (0 : Fin 3) = t.val / 10 ∧ win0_0.index t (1 : Fin 3) = t.val % 10 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = 0 ∧ win0_3.index t (1 : Fin 3) = t.val % 10 ∧ win0_3.index t (2 : Fin 3) = 0
    ∧ win0_4.index t (0 : Fin 1) = 0
    ∧ win0_5.index t (0 : Fin 2) = t.val / 10 ∧ win0_5.index t (1 : Fin 2) = 0 :=
  (by decide +kernel : ∀ t : Fin grid0.N, _)

theorem lt80 (t : Fin cfg0.N) : t.val < 80 := lt_of_lt_of_eq t.isLt (show cfg0.N = 80 from N_0)

/-- The input block at point t, at (p, tl, e): the input at row (t / 10) · 256 + p, step (t % 10) · 24 + tl. -/
theorem iblk0_apply (c : Dev nD) (t : Fin cfg0.N) (p : Fin 256) (tl : Fin 24) (e : Fin 90) :
    (iblk m c 0 t : Vec Ideal S256x24x90 .f32) (ix3 p tl e)
      = V m c main_arg0 (ix3 (⟨t.val / 10 * 256 + p.val, by have := lt80 t; omega⟩ : Fin 2048)
          (⟨t.val % 10 * 24 + tl.val, by omega⟩ : Fin 240) e) := by
  obtain ⟨e0, e1, e2, -⟩ := idx_facts t
  unfold iblk
  rw [View.read_apply]
  show V m c main_arg0 (((cfg0.win 0).blk t).view.emb (ix3 p tl e)) = _
  refine congrArg (V m c main_arg0) (funext fun a => Fin.ext ?_)
  match a with
  | ⟨0, _⟩ => show win0_0.index t (0 : Fin 3) * 256 + 1 * p.val = t.val / 10 * 256 + p.val; rw [e0]; omega
  | ⟨1, _⟩ => show win0_0.index t (1 : Fin 3) * 24 + 1 * tl.val = t.val % 10 * 24 + tl.val; rw [e1]; omega
  | ⟨2, _⟩ => show win0_0.index t (2 : Fin 3) * 90 + 1 * e.val = e.val; rw [e2]; omega

/-- The gate weights' block is the whole array at every point. -/
theorem iblk1_apply (c : Dev nD) (t : Fin cfg0.N) (g : Fin 360) (e : Fin 90) :
    (iblk m c 1 t : Vec Ideal S360x90 .f32) (ix2 g e) = V m c main_arg1 (ix2 g e) := by
  obtain ⟨-, -, -, e0, e1, -⟩ := idx_facts t
  unfold iblk
  rw [View.read_apply]
  show V m c main_arg1 (((cfg0.win 1).blk t).view.emb (ix2 g e)) = _
  refine congrArg (V m c main_arg1) (funext fun a => Fin.ext ?_)
  match a with
  | ⟨0, _⟩ => show win0_1.index t (0 : Fin 2) * 360 + 1 * g.val = g.val; rw [e0]; omega
  | ⟨1, _⟩ => show win0_1.index t (1 : Fin 2) * 90 + 1 * e.val = e.val; rw [e1]; omega

/-- The summed bias' block is the whole vector at every point. -/
theorem iblk2_apply (c : Dev nD) (t : Fin cfg0.N) (g : Fin 360) :
    (iblk m c 2 t : Vec Ideal S360 .f32) (ix1 g) = V m c main_v0 (ix1 g) := by
  obtain ⟨-, -, -, -, -, e0, -⟩ := idx_facts t
  unfold iblk
  rw [View.read_apply]
  show V m c main_v0 (((cfg0.win 2).blk t).view.emb (ix1 g)) = _
  refine congrArg (V m c main_v0) (funext fun a => Fin.ext ?_)
  match a with
  | ⟨0, _⟩ => show win0_2.index t (0 : Fin 1) * 360 + 1 * g.val = g.val; rw [e0]; omega

/-- The head weights' block at point t, at (n, tl, d): the [40, 240, 90] arrangement at step (t % 10) · 24 + tl. -/
theorem iblk3_apply (c : Dev nD) (t : Fin cfg0.N) (n : Fin 40) (tl : Fin 24) (d : Fin 90) :
    (iblk m c 3 t : Vec Ideal S40x24x90 .f32) (ix3 n tl d)
      = V m c main_v1 (ix3 n (⟨t.val % 10 * 24 + tl.val, by omega⟩ : Fin 240) d) := by
  obtain ⟨-, -, -, -, -, -, e0, e1, e2, -⟩ := idx_facts t
  unfold iblk
  rw [View.read_apply]
  show V m c main_v1 (((cfg0.win 3).blk t).view.emb (ix3 n tl d)) = _
  refine congrArg (V m c main_v1) (funext fun a => Fin.ext ?_)
  match a with
  | ⟨0, _⟩ => show win0_3.index t (0 : Fin 3) * 40 + 1 * n.val = n.val; rw [e0]; omega
  | ⟨1, _⟩ => show win0_3.index t (1 : Fin 3) * 24 + 1 * tl.val = t.val % 10 * 24 + tl.val; rw [e1]; omega
  | ⟨2, _⟩ => show win0_3.index t (2 : Fin 3) * 90 + 1 * d.val = d.val; rw [e2]; omega

/-- The head bias' block is the whole vector at every point. -/
theorem iblk4_apply (c : Dev nD) (t : Fin cfg0.N) (n : Fin 40) :
    (iblk m c 4 t : Vec Ideal S40 .f32) (ix1 n) = V m c main_arg6 (ix1 n) := by
  obtain ⟨-, -, -, -, -, -, -, -, -, e0, -⟩ := idx_facts t
  unfold iblk
  rw [View.read_apply]
  show V m c main_arg6 (((cfg0.win 4).blk t).view.emb (ix1 n)) = _
  refine congrArg (V m c main_arg6) (funext fun a => Fin.ext ?_)
  match a with
  | ⟨0, _⟩ => show win0_4.index t (0 : Fin 1) * 40 + 1 * n.val = n.val; rw [e0]; omega

/-- One point's sum is the time tile of its row: the block's rows are rows (t / 10) · 256 + p of the input, its steps
    the steps of tile t % 10. -/
theorem blockAcc_eq_tile (c : Dev nD) (t : Fin cfg0.N) (p : Fin 256) (n : Fin 40) :
    blockAcc (iblk m c 0 t : Vec Ideal S256x24x90 .f32) (iblk m c 1 t : Vec Ideal S360x90 .f32)
        (iblk m c 2 t : Vec Ideal S360 .f32) (iblk m c 3 t : Vec Ideal S40x24x90 .f32) p n
      = tile (V m c main_arg0) (V m c main_arg1) (V m c main_v0) (V m c main_v1)
          (⟨t.val / 10 * 256 + p.val, by have := lt80 t; omega⟩ : Fin 2048) n (⟨t.val % 10, by omega⟩ : Fin 10) := by
  unfold blockAcc tile
  refine Finset.sum_congr rfl fun tl _ => Finset.sum_congr rfl fun d _ => ?_
  rw [iblk3_apply]
  exact congrArg (· * _) (hid_read (V m c main_arg0) _ (V m c main_arg1) _ (V m c main_v0) _ _ _ p tl
    (fun e => iblk0_apply m c t p tl e) (fun g e => iblk1_apply m c t g e) (fun g => iblk2_apply m c t g) d)

/-- The batch row that row p of the output block at point n is: row block n / 10 (there are eight). -/
def rowOf (n : ℕ) (p : Fin 256) : Fin 2048 := ⟨n / 10 % 8 * 256 + p.val, by omega⟩
/-- The time tile of point n. -/
def tileOf (n : ℕ) : Fin 10 := ⟨n % 10, by omega⟩

/-- The time tiles of batch row b for class q, as the region finds the arrays. -/
abbrev tiles (c : Dev nD) (b : Fin 2048) (q : Fin 40) : Fin 10 → EReal :=
  tile (V m c main_arg0) (V m c main_arg1) (V m c main_v0) (V m c main_v1) b q

theorem pointSum (c : Dev nD) (t : Fin cfg0.N) (p : Fin 256) (q : Fin 40) :
    blockAcc (iblk m c 0 t : Vec Ideal S256x24x90 .f32) (iblk m c 1 t : Vec Ideal S360x90 .f32)
        (iblk m c 2 t : Vec Ideal S360 .f32) (iblk m c 3 t : Vec Ideal S40x24x90 .f32) p q
      = tiles m c (rowOf t.val p) q (tileOf t.val) := by
  rw [blockAcc_eq_tile]
  have ht := lt80 t
  exact congrArg (fun b => tile _ _ _ _ b q _) (Fin.ext (by show t.val / 10 * 256 + p.val = t.val / 10 % 8 * 256 + p.val; omega))

/-- At the first time tile of a row block the output block holds that tile alone. -/
theorem atFirst (c : Dev nD) (t : Fin cfg0.N) (h0 : t.val % 10 = 0) (p : Fin 256) (q : Fin 40) :
    (outsAt0 m c t.val t.isLt : Vec Ideal S256x40 .f32) (ix2 p q) = partialSum (tiles m c (rowOf t.val p) q) (t.val % 10 + 1) := by
  rw [outsAt0_A m c t h0 (by omega), Body.out_A, BodyValue.first_val, pointSum,
    partialSum_step _ (t.val % 10) (tileOf t.val) rfl, h0, partialSum_zero, zero_add]

/-- After point n, not the last tile of its row block, the output block holds the row's tiles up to n's. -/
theorem running (c : Dev nD) (n : ℕ) : ∀ (hn : n < cfg0.N), n % 10 ≠ 9 → ∀ (p : Fin 256) (q : Fin 40),
    (outsAt0 m c n hn : Vec Ideal S256x40 .f32) (ix2 p q) = partialSum (tiles m c (rowOf n p) q) (n % 10 + 1) := by
  induction n with
  | zero => intro hn _ p q; exact atFirst m c ⟨0, hn⟩ rfl p q
  | succ k ih =>
    intro hn h9 p q
    by_cases h0 : (k + 1) % 10 = 0
    · exact atFirst m c ⟨k + 1, hn⟩ h0 p q
    · rw [outsAt0_B m c ⟨k + 1, hn⟩ h0 h9, Body.out_B, BodyValue.middle_val, pointSum]
      show (outsAt0 m c k _ : Vec Ideal S256x40 .f32) (ix2 p q) + _ = _
      rw [ih (Nat.lt_of_succ_lt hn) (by omega) p q]
      have hr : rowOf (k + 1) p = rowOf k p := Fin.ext (by show (k + 1) / 10 % 8 * 256 + p.val = k / 10 % 8 * 256 + p.val; omega)
      rw [show (k + 1) % 10 + 1 = (k % 10 + 1) + 1 from by omega,
        partialSum_step _ (k % 10 + 1) (tileOf (k + 1)) (by show (k + 1) % 10 = k % 10 + 1; omega), hr]

/-- After the last time tile of a row block the output block holds all ten tiles and the head's bias. -/
theorem finished (c : Dev nD) (t : Fin cfg0.N) (h9 : t.val % 10 = 9) (p : Fin 256) (q : Fin 40) :
    (outsAt0 m c t.val t.isLt : Vec Ideal S256x40 .f32) (ix2 p q)
      = (∑ j : Fin 10, tiles m c (rowOf t.val p) q j) + V m c main_arg6 (ix1 q) := by
  have ht := lt80 t
  rw [outsAt0_C m c t (by omega) h9, Body.out_C, BodyValue.last_val, pointSum, iblk4_apply,
    running m c (t.val - 1) _ (by omega) p q]
  have hr : rowOf (t.val - 1) p = rowOf t.val p := Fin.ext (by show (t.val - 1) / 10 % 8 * 256 + p.val = t.val / 10 % 8 * 256 + p.val; omega)
  rw [hr, show (t.val - 1) % 10 + 1 = 9 from by omega, ← partialSum_step _ 9 (tileOf t.val) h9, partialSum_all]

/-- The two bias vectors are summed on the host before the region. -/
theorem bias_eq (c : Dev nD) : (V m c main_v0 : S360.Idx → EReal)
    = (addf (m ((c : Thread nD τ).loc main_arg3) : FVec Ideal S360 .f32) (m ((c : Thread nD τ).loc main_arg4)) : FVec Ideal S360 .f32) := by
  show StableHlo.after hostOps0 (fun b => m (c, b)) (Proc.devRef .tc main_v0) = _
  after_results

/-- The head's weights are reshaped on the host before the region. -/
theorem wout_eq (c : Dev nD) : (V m c main_v1 : S40x240x90.Idx → EReal)
    = shapeCast S40x240x90 (m ((c : Thread nD τ).loc main_arg5) : S40x21600.Idx → EReal) shapeCasts_S40x21600_S40x240x90 := by
  show StableHlo.after hostOps0 (fun b => m (c, b)) (Proc.devRef .tc main_v1) = _
  after_results
  rfl

/-- The reshape read at an index: entry (n, t, d) of [40, 240, 90] is entry (n, t · 90 + d) of [40, 21600]. -/
theorem wout_apply (c : Dev nD) (n : Fin 40) (t : Fin 240) (d : Fin 90) :
    (V m c main_v1 : S40x240x90.Idx → EReal) (ix3 n t d)
      = m ((c : Thread nD τ).loc main_arg5) (ix2 n (⟨t.val * 90 + d.val, by omega⟩ : Fin 21600)) := by
  rw [wout_eq]
  exact shapeCast_apply (s := S40x21600) (t := S40x240x90) (m ((c : Thread nD τ).loc main_arg5) : S40x21600.Idx → EReal)
    shapeCasts_S40x21600_S40x240x90 (ix3 n t d) (ix2 n (⟨t.val * 90 + d.val, by omega⟩ : Fin 21600)) (by
    rw [Shape.rowMajor_val_three, Shape.rowMajor_val_two]
    show n.val * 21600 + (t.val * 90 + d.val) = (n.val * 240 + t.val) * 90 + d.val
    omega)

/-- The head before the softmax, as the kernel's result array [2048, 40], of the argument arrays. -/
def headArr (c : Dev nD) : Buf (Elt Ideal) ((c : Thread nD τ).loc main_v2) :=
  linArr (m ((c : Thread nD τ).loc main_arg0)) (m ((c : Thread nD τ).loc main_arg1))
    (addf (m ((c : Thread nD τ).loc main_arg3) : FVec Ideal S360 .f32) (m ((c : Thread nD τ).loc main_arg4)) : FVec Ideal S360 .f32)
    (m ((c : Thread nD τ).loc main_arg5)) (m ((c : Thread nD τ).loc main_arg6))

/-- What a writing-back point writes back is its block of the head. -/
theorem flushed_eq (c : Dev nD) (t : Fin cfg0.N) (hf : (cfg0.win 5).flush t = true) :
    (dats m 0 c).flushed 5 t = ((cfg0.win 5).blk t).view.read (Elt Ideal) (headArr m c) := by
  have h9 := (flush0_5 t).mp hf
  have ht := lt80 t
  obtain ⟨-, -, -, -, -, -, -, -, -, -, e0, e1⟩ := idx_facts t
  show (cfg0.win 5).cut (grid0.coords t) ((dats m 0 c).after 5 t) = _
  rw [after0_5]
  funext y
  obtain ⟨p, q, rfl⟩ : ∃ (p : Fin 256) (q : Fin 40), y = ix2 p q := ⟨y 0, y 1, eq_ix2 y⟩
  rw [View.read_apply]
  have hemb : ((cfg0.win 5).blk t).view.emb (ix2 p q) = ix2 (rowOf t.val p) q := funext fun a => Fin.ext (by
    match a with
    | ⟨0, _⟩ => show win0_5.index t (0 : Fin 2) * 256 + 1 * p.val = t.val / 10 % 8 * 256 + p.val; rw [e0]; omega
    | ⟨1, _⟩ => show win0_5.index t (1 : Fin 2) * 40 + 1 * q.val = q.val; rw [e1]; omega)
  rw [hemb]
  show (outsAt0 m c t.val t.isLt : Vec Ideal S256x40 .f32) (ix2 p q) = lin _ _ _ _ _ (rowOf t.val p) q
  rw [finished m c t h9 p q, ← tiles_eq_lin _ _ _ _ _ (V m c main_v1) (wout_apply m c) (rowOf t.val p) q]
  unfold tiles
  rw [V_main_arg0, V_main_arg1, V_main_arg6, bias_eq]

/-- Every entry of the result array lies in the block of the last time tile of its row block. -/
theorem covered (c : Dev nD) (i : S2048x40.Idx) :
    ∃ t : Fin cfg0.N, (cfg0.win 5).flush t = true ∧ i ∈ ((cfg0.win 5).blk t).view.set := by
  have h0 : (i 0).val < 2048 := (i 0).isLt
  have h1 : (i 1).val < 40 := (i 1).isLt
  have hN : cfg0.N = 80 := N_0
  let t : Fin cfg0.N := ⟨(i 0).val / 256 * 10 + 9, by rw [hN]; omega⟩
  obtain ⟨-, -, -, -, -, -, -, -, -, -, e0, e1⟩ := idx_facts t
  have tv : t.val = (i 0).val / 256 * 10 + 9 := rfl
  refine ⟨t, (flush0_5 t).mpr (by rw [tv]; omega), ?_⟩
  show i ∈ ((View.whole main_v2).slice (win0_5.rect t)).set
  rw [View.set_slice_whole, Rect.mem_set_unit]
  intro a
  match a with
  | ⟨0, _⟩ =>
    show win0_5.index t (0 : Fin 2) * 256 ≤ (i 0).val ∧ (i 0).val < win0_5.index t (0 : Fin 2) * 256 + 256
    rw [e0, tv]; omega
  | ⟨1, _⟩ =>
    show win0_5.index t (1 : Fin 2) * 40 ≤ (i 1).val ∧ (i 1).val < win0_5.index t (1 : Fin 2) * 40 + 40
    rw [e1]; omega

/-- The result array after the region: the head of the argument arrays. -/
theorem final (c : Dev nD) : (dats m 0 c).arrAt 5 cfg0.N = headArr m c :=
  (dats m 0 c).arrAt_eq_of_cover 5 (headArr m c) (fun t hf => flushed_eq m c t hf) (covered c)

end Cert.KernelIdeal.Blocks
end
-- ==== Proof.Tail.lean ====
/-
  The last stretch both programs share: the [2048, 40] head is read as [2048, 4, 10] and a softmax taken over the
  last axis (the maximum over the axis subtracted, exponentials, divided by their sum). It is carried as ONE
  function of the head; nothing about a softmax is used, only that both programs apply the same function.
-/
import proofs.«126252_j8718783611480_1_alg».proof.Proof.Gen.KernelIdeal

noncomputable section

namespace Cert.KernelIdeal

open Idealize.ShloMosaic Cert.KernelIdeal.Facts₀ Cert.KernelIdeal.Facts

variable {F : FTy → Type} [FloatOps F]

/-- Softmax over groups of ten consecutive classes of each row. -/
def softmaxTail (z : FVec F S2048x40 .f32) : FVec F S2048x4x10 .f32 :=
  Host.divf
    (Host.exp (subf (shapeCast S2048x4x10 z shapeCasts_S2048x40_S2048x4x10)
      (broadcastInDim S2048x4x10 ![0, 1, 2] bcast_S2048x4x1_S2048x4x10_0_1_2
        (broadcastInDim S2048x4x1 ![0, 1] bcast_S2048x4_S2048x4x1_0_1
          (maximumf (broadcastInDim S2048x4 ![] bcast_S_S2048x4 (constant S_ .f32 0xFF800000#32))
            (Host.reduce FloatOps.maximumf (shapeCast S2048x4x10 z shapeCasts_S2048x40_S2048x4x10)
              (constant S_ .f32 0xFF800000#32) reducesTo_S2048x4x10_S2048x4_d2 h_S_))))))
    (broadcastInDim S2048x4x10 ![0, 1, 2] bcast_S2048x4x1_S2048x4x10_0_1_2
      (broadcastInDim S2048x4x1 ![0, 1] bcast_S2048x4_S2048x4x1_0_1
        (Host.reduceAdd
          (Host.exp (subf (shapeCast S2048x4x10 z shapeCasts_S2048x40_S2048x4x10)
            (broadcastInDim S2048x4x10 ![0, 1, 2] bcast_S2048x4x1_S2048x4x10_0_1_2
              (broadcastInDim S2048x4x1 ![0, 1] bcast_S2048x4_S2048x4x1_0_1
                (maximumf (broadcastInDim S2048x4 ![] bcast_S_S2048x4 (constant S_ .f32 0xFF800000#32))
                  (Host.reduce FloatOps.maximumf (shapeCast S2048x4x10 z shapeCasts_S2048x40_S2048x4x10)
                    (constant S_ .f32 0xFF800000#32) reducesTo_S2048x4x10_S2048x4_d2 h_S_))))))
          (constant S_ .f32 0x00000000#32) reducesTo_S2048x4x10_S2048x4_d2 h_S_)))

end Cert.KernelIdeal

end
-- ==== Proof.KernelRun.lean ====
/-
  The idealized kernel's run, read: after the region the result array [2048, 40] holds the head of the argument
  arrays; the host operations after it apply the shared softmax to it; the argument arrays end unchanged.
-/
import proofs.«126252_j8718783611480_1_alg».proof.Proof.Gen.KernelIdeal.Frame
import proofs.«126252_j8718783611480_1_alg».proof.Proof.Blocks
import proofs.«126252_j8718783611480_1_alg».proof.Proof.Tail
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Value
open Cert.KernelIdeal Cert.KernelIdeal.Gen

variable {F : FTy → Type} [FloatOps F]

open Cert.LstmHead Idealize.ShloMosaic.ValueIdx

variable (m : (ℓ : Loc nD τ sig) → Buf (Elt Ideal) ℓ) (ρ : Dev nD → PrngReg)

/-- The host operations after the region, run on the region's result: the shared softmax of the head. -/
theorem tail_eq (c : Dev nD) :
    Pipeline.afterTail₀ cfgs (dats m) 0 (V0 m) [hostOps1] c main_v14 = softmaxTail (F := Ideal) (Blocks.headArr m c) := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v2)
      = Blocks.headArr m c := (Pipeline.withArrays_arr spec0 launch0.win.arr_inj c _ _ 5).trans (Blocks.final m c)
  rw [e]
  rfl

/-- Every weakly fair execution of the idealized kernel's program terminates with the result at the softmax of the
    head of the argument arrays, and the argument arrays as launched. -/
theorem run : θ_run defs (onTc (τ := τ) (main (F := Ideal))) ⟨m, fun _ => 0, ρ⟩ fun r => ∀ c : Dev nD,
      r.2.mem ((c.tc : Thread nD τ).loc main_v14) = softmaxTail (F := Ideal) (Blocks.headArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨
      ((h c).2 main_v14 (Pipeline.mem_restRefs_of main_v14 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).1 4).trans (((dats m 0 c).arrAt_in 4 rfl _).trans ((A_eq m c 4).trans (V_main_arg6 m c)))⟩)
    (run_main m ρ)

end Cert.KernelIdeal.Value
end
-- ==== Proof.RefValue.lean ====
/-
  The reference program read at an index, over the extended reals, and brought to the same functions as the kernel:
  its pre-activations are the einsum plus the two biases one after the other (the kernel adds their sum: the same by
  associativity); jax spells the sigmoid as 1 / (1 + exp(−z)), the logistic function; the cell outputs are flattened
  over (step, feature) and contracted with the head's weights in one product of 21600 terms, plus the head's bias.
  What follows that in the program is the shared softmax, left unopened.
-/
import proofs.«126252_j8718783611480_1_alg».proof.Proof.Gen.ReferenceIdeal.Read
import proofs.«126252_j8718783611480_1_alg».proof.Proof.Spec
import proofs.«126252_j8718783611480_1_alg».proof.Proof.Tail
import Idealize.ShloMosaic.Lib.Pipeline.Value
import Idealize.ShloMosaic.Lib.ValueIdx
import Idealize.ShloMosaic.Lib.IdealHost
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Cert.LstmHead Idealize.ShloMosaic.ValueIdx

variable (x0 : FVec Ideal S2048x240x90 .f32) (x1 : FVec Ideal S360x90 .f32) (x3 x4 : FVec Ideal S360 .f32)
  (x5 : FVec Ideal S40x21600 .f32) (x6 : FVec Ideal S40 .f32)

/-- The reference's pre-activations [2048, 240, 360]: the einsum plus the first bias plus the second, which is the
    einsum plus the sum of the two (addition is associative on the extended reals). -/
theorem gate_ref (b : Fin 2048) (t : Fin 240) (g : Fin 360) :
    val_main_v6 (F := Ideal) x0 x1 x3 x4 (ix3 b t g) = gate x0 x1 (addf x3 x4) b t g := by
  have el : ∀ k : Fin 90, lidx_main_v0 (ix3 b t g) k = ix3 b t k := fun k => funext fun a => by
    match a with | ⟨0, _⟩ => rfl | ⟨1, _⟩ => rfl | ⟨2, _⟩ => rfl
  have er : ∀ k : Fin 90, ridx_main_v0 (ix3 b t g) k = ix2 g k := fun k => funext fun a => by
    match a with | ⟨0, _⟩ => rfl | ⟨1, _⟩ => rfl
  have e3 : idx_main_v1 (idx_main_v2 (ix3 b t g)) = ix1 g := funext fun a => by match a with | ⟨0, _⟩ => rfl
  have e4 : idx_main_v4 (idx_main_v5 (ix3 b t g)) = ix1 g := funext fun a => by match a with | ⟨0, _⟩ => rfl
  rw [val_main_v6_apply, val_main_v3_apply, val_main_v0_apply, val_main_v2_apply, val_main_v1_apply, val_main_v5_apply,
    val_main_v4_apply, e3, e4]
  simp only [el, er]
  unfold gate
  exact add_assoc _ _ _

/-- The reference's cell outputs [2048, 240, 90]: jax's sigmoid is spelt 1 / (1 + exp(−z)), which is the logistic
    function on the extended reals, the literal 1.0 being the real one. -/
theorem hidden_ref (b : Fin 2048) (t : Fin 240) (d : Fin 90) :
    val_main_v26 (F := Ideal) x0 x1 x3 x4 (ix3 b t d) = hid x0 x1 (addf x3 x4) b t d := by
  have e7 : idx_main_v7 (ix3 b t d) = ix3 b t (⟨d.val, by omega⟩ : Fin 360) := funext fun a => by
    match a with | ⟨0, _⟩ => rfl | ⟨1, _⟩ => rfl | ⟨2, _⟩ => rfl
  have e9 : idx_main_v9 (ix3 b t d) = ix3 b t (⟨180 + d.val, by omega⟩ : Fin 360) := funext fun a => Fin.ext (by
    match a with | ⟨0, _⟩ => rfl | ⟨1, _⟩ => rfl | ⟨2, _⟩ => rfl)
  have e10 : idx_main_v10 (ix3 b t d) = ix3 b t (⟨270 + d.val, by omega⟩ : Fin 360) := funext fun a => Fin.ext (by
    match a with | ⟨0, _⟩ => rfl | ⟨1, _⟩ => rfl | ⟨2, _⟩ => rfl)
  rw [val_main_v26_apply, val_main_v24_apply, val_main_v23_apply, val_main_cst_2_apply, val_main_v22_apply, val_main_v21_apply,
    val_main_cst_1_apply, val_main_v20_apply, val_main_v19_apply, val_main_v10_apply, e10, gate_ref,
    val_main_v25_apply, val_main_v18_apply, val_main_v16_apply, val_main_v15_apply, val_main_cst_0_apply, val_main_v14_apply,
    val_main_v13_apply, val_main_cst_apply, val_main_v12_apply, val_main_v11_apply, val_main_v7_apply, e7, gate_ref,
    val_main_v17_apply, val_main_v9_apply, e9, gate_ref]
  rw [show (FloatOps.ofBits FTy.f32 0x3F800000#32 : Idealize.ShloMosaic.Ideal .f32) = (1 : EReal) from Ideal.ofBits_one_f32]
  rfl

/-- The reference's head before the softmax [2048, 40]: the flattened cell outputs against the head's weights, plus
    the head's bias. -/
theorem head_ref : val_main_v32 (F := Ideal) x0 x1 x3 x4 x5 x6 = linArr x0 x1 (addf x3 x4) x5 x6 := by
  funext i
  obtain ⟨b, n, rfl⟩ : ∃ (b : Fin 2048) (n : Fin 40), i = ix2 b n := ⟨i 0, i 1, eq_ix2 i⟩
  have el : ∀ k : Fin 21600, idx_main_v27 (lidx_main_v29 (ix2 b n) k)
      = ix3 b (⟨k.val / 90, by omega⟩ : Fin 240) (⟨k.val % 90, by omega⟩ : Fin 90) := fun k => funext fun a => Fin.ext (by
    have hb := b.isLt; have hk := k.isLt
    match a with
    | ⟨0, _⟩ => show (b.val * 21600 + k.val) / 21600 = b.val; omega
    | ⟨1, _⟩ => show (b.val * 21600 + k.val) / 90 % 240 = k.val / 90; omega
    | ⟨2, _⟩ => show (b.val * 21600 + k.val) % 90 = k.val % 90; omega)
  have er : ∀ k : Fin 21600, idx_main_v28 (ridx_main_v29 (ix2 b n) k) = ix2 n k := fun k => funext fun a => by
    match a with | ⟨0, _⟩ => rfl | ⟨1, _⟩ => rfl
  have eb : idx_main_v30 (idx_main_v31 (ix2 b n)) = ix1 n := funext fun a => by match a with | ⟨0, _⟩ => rfl
  rw [val_main_v32_apply, val_main_v29_apply, val_main_v31_apply, val_main_v30_apply, eb]
  simp only [val_main_v27_apply, val_main_v28_apply, el, er, hidden_ref]
  rfl

/-- The reference's result is the shared softmax of its head. -/
theorem result_ref : val_main_v44 (F := Ideal) x0 x1 x3 x4 x5 x6
    = Cert.KernelIdeal.softmaxTail (F := Ideal) (val_main_v32 (F := Ideal) x0 x1 x3 x4 x5 x6) := by
  unfold val_main_v44 val_main_v43 val_main_v42 val_main_v41 val_main_v40 val_main_v39 val_main_v38 val_main_v37 val_main_v36
    val_main_v35 val_main_v34 val_main_v33 val_main_cst_3 val_main_cst_4 val_main_cst_5 Cert.KernelIdeal.softmaxTail
  rfl

end Cert.ReferenceIdeal.RefValue
end
-- ==== Proof.lean ====
/-
  The certificate of the fused LSTM-cell / linear-head kernel against its jnp reference, over the extended reals.

  Both programs compute, for every batch row b and class n,
      lin b n = (∑ over steps t and features d of hid b t d · W_out[n, t · 90 + d]) + b_out[n],
      hid b t d = σ(g b t (270+d)) · tanh(σ(g b t d) · tanh(g b t (180+d))),   g b t r = x[b,t,:] · W_ih[r,:] + b_ih[r] + b_hh[r],
  and then the same softmax over groups of ten classes. The kernel tiles the batch into 8 blocks of 256 rows and the
  steps into 10 tiles of 24; each grid point adds its tile's partial sum into the row block's output block (reset at
  the first tile, the head's bias added after the last). The reference forms one product over all 21600 (t, d)
  pairs. The two agree because sums on the extended reals may be regrouped and reordered freely (only + and · of
  the same terms occur, no cancellation), the roundings to bf16 are the identity there, and the two spellings of the
  sigmoid are one function; finiteness of the inputs is not needed for the equality.

  Spec: the formulas. Pieces, BodyValue: one grid point's arithmetic. Blocks: the grid, by induction on the point.
  KernelRun: the kernel's run with the softmax after the region. RefValue: the reference. Regroup: the sum regrouped.
-/
import proofs.«126252_j8718783611480_1_alg».proof.Defs
import proofs.«126252_j8718783611480_1_alg».proof.Proof.Gen.Kernel
import proofs.«126252_j8718783611480_1_alg».proof.Proof.Gen.Kernel.Frame
import proofs.«126252_j8718783611480_1_alg».proof.Proof.Gen.KernelIdeal
import proofs.«126252_j8718783611480_1_alg».proof.Proof.Gen.KernelIdeal.Frame
import proofs.«126252_j8718783611480_1_alg».proof.Proof.Gen.ReferenceIdeal
import proofs.«126252_j8718783611480_1_alg».proof.Proof.Gen.ReferenceIdeal.Run
import proofs.«126252_j8718783611480_1_alg».proof.Proof.Gen.ReferenceIdeal.Read
import proofs.«126252_j8718783611480_1_alg».proof.Proof.Gen.Pre_finite_inputs
import proofs.«126252_j8718783611480_1_alg».proof.Proof.KernelRun
import proofs.«126252_j8718783611480_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the softmax of the same head. -/
theorem algebraic : Cert.algebraic_KernelIdeal_ReferenceIdeal := by
  intro m ρ m' ρ' _ hagree
  refine ⟨fun c => Cert.KernelIdeal.softmaxTail (F := Ideal) (Cert.KernelIdeal.Blocks.headArr m c),
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.ReferenceIdeal.RefValue.result_ref, Cert.ReferenceIdeal.RefValue.head_ref,
    (hagree c).1, (hagree c).2.1, (hagree c).2.2.2.1, (hagree c).2.2.2.2.1, (hagree c).2.2.2.2.2.1, (hagree c).2.2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
